-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x65536x256 : Shape := ⟨3, ![8, 65536, 256]⟩
abbrev S8x256x256 : Shape := ⟨3, ![8, 256, 256]⟩
abbrev S8x256 : Shape := ⟨2, ![8, 256]⟩
abbrev S8x256x1 : Shape := ⟨3, ![8, 256, 1]⟩
abbrev S8x1 : Shape := ⟨2, ![8, 1]⟩
abbrev S_ : Shape := ⟨0, ![]⟩

class Facts : Prop where
  bcast_S_S8x65536x256 : S_.BroadcastsInDim S8x65536x256 (![] : Fin 0 → Fin S8x65536x256.rank)
  reducesTo_S8x65536x256_S_d0_1_2 : S8x65536x256.ReducesTo [0, 1, 2] S_
  h_S_ : 0 < S_.numel
  bcast_S_S8x256x256 : S_.BroadcastsInDim S8x256x256 (![] : Fin 0 → Fin S8x256x256.rank)
  reducesTo_S8x256x256_S_d0_1_2 : S8x256x256.ReducesTo [0, 1, 2] S_
  bcast_S_S8x256 : S_.BroadcastsInDim S8x256 (![] : Fin 0 → Fin S8x256.rank)
  reducesTo_S8x256_S_d0_1 : S8x256.ReducesTo [0, 1] S_
  bcast_S_S8x256x1 : S_.BroadcastsInDim S8x256x1 (![] : Fin 0 → Fin S8x256x1.rank)
  reducesTo_S8x256x1_S_d0_1_2 : S8x256x1.ReducesTo [0, 1, 2] S_
  bcast_S_S8x1 : S_.BroadcastsInDim S8x1 (![] : Fin 0 → Fin S8x1.rank)
  reducesTo_S8x1_S_d0_1 : S8x1.ReducesTo [0, 1] S_

variable [Facts]

def fn_part2 {F : FTy → Type} [FloatOps F] (main_arg7 : FVec F S8x256x1 .f32) (main_arg8 : FVec F S8x1 .f32) (main_v33 : IVec S_ 1) : IVec S_ 1 :=
  let main_v34 : FVec F S8x256x1 .f32 := Host.absf main_arg7
  let main_cst_12 : FVec F S_ .f32 := constant S_ .f32 0x7F800000#32
  let main_v35 : FVec F S8x256x1 .f32 := broadcastInDim S8x256x1 ![] bcast_S_S8x256x1 main_cst_12
  let main_v36 : IVec S8x256x1 1 := cmpf .olt main_v34 main_v35
  let main_c_13 : IVec S_ 1 := constantI S_ 1 1#1
  let main_v37 : IVec S_ 1 := (fun x v => Host.reduce IntOp.andi x v reducesTo_S8x256x1_S_d0_1_2 h_S_) main_v36 main_c_13
  let main_v38 : IVec S_ 1 := andi main_v33 main_v37
  let main_v39 : FVec F S8x1 .f32 := Host.absf main_arg8
  let main_cst_14 : FVec F S_ .f32 := constant S_ .f32 0x7F800000#32
  let main_v40 : FVec F S8x1 .f32 := broadcastInDim S8x1 ![] bcast_S_S8x1 main_cst_14
  let main_v41 : IVec S8x1 1 := cmpf .olt main_v39 main_v40
  let main_c_15 : IVec S_ 1 := constantI S_ 1 1#1
  let main_v42 : IVec S_ 1 := (fun x v => Host.reduce IntOp.andi x v reducesTo_S8x1_S_d0_1 h_S_) main_v41 main_c_15
  let main_v43 : IVec S_ 1 := andi main_v38 main_v42
  main_v43

def fn_part1 {F : FTy → Type} [FloatOps F] (main_arg4 : FVec F S8x256 .f32) (main_arg5 : FVec F S8x256x256 .f32) (main_arg6 : FVec F S8x256 .f32) (main_arg7 : FVec F S8x256x1 .f32) (main_arg8 : FVec F S8x1 .f32) (main_v13 : IVec S_ 1) (main_v16 : IVec S8x256x256 1) : IVec S_ 1 :=
  let main_c_5 : IVec S_ 1 := constantI S_ 1 1#1
  let main_v17 : IVec S_ 1 := (fun x v => Host.reduce IntOp.andi x v reducesTo_S8x256x256_S_d0_1_2 h_S_) main_v16 main_c_5
  let main_v18 : IVec S_ 1 := andi main_v13 main_v17
  let main_v19 : FVec F S8x256 .f32 := Host.absf main_arg4
  let main_cst_6 : FVec F S_ .f32 := constant S_ .f32 0x7F800000#32
  let main_v20 : FVec F S8x256 .f32 := broadcastInDim S8x256 ![] bcast_S_S8x256 main_cst_6
  let main_v21 : IVec S8x256 1 := cmpf .olt main_v19 main_v20
  let main_c_7 : IVec S_ 1 := constantI S_ 1 1#1
  let main_v22 : IVec S_ 1 := (fun x v => Host.reduce IntOp.andi x v reducesTo_S8x256_S_d0_1 h_S_) main_v21 main_c_7
  let main_v23 : IVec S_ 1 := andi main_v18 main_v22
  let main_v24 : FVec F S8x256x256 .f32 := Host.absf main_arg5
  let main_cst_8 : FVec F S_ .f32 := constant S_ .f32 0x7F800000#32
  let main_v25 : FVec F S8x256x256 .f32 := broadcastInDim S8x256x256 ![] bcast_S_S8x256x256 main_cst_8
  let main_v26 : IVec S8x256x256 1 := cmpf .olt main_v24 main_v25
  let main_c_9 : IVec S_ 1 := constantI S_ 1 1#1
  let main_v27 : IVec S_ 1 := (fun x v => Host.reduce IntOp.andi x v reducesTo_S8x256x256_S_d0_1_2 h_S_) main_v26 main_c_9
  let main_v28 : IVec S_ 1 := andi main_v23 main_v27
  let main_v29 : FVec F S8x256 .f32 := Host.absf main_arg6
  let main_cst_10 : FVec F S_ .f32 := constant S_ .f32 0x7F800000#32
  let main_v30 : FVec F S8x256 .f32 := broadcastInDim S8x256 ![] bcast_S_S8x256 main_cst_10
  let main_v31 : IVec S8x256 1 := cmpf .olt main_v29 main_v30
  let main_c_11 : IVec S_ 1 := constantI S_ 1 1#1
  let main_v32 : IVec S_ 1 := (fun x v => Host.reduce IntOp.andi x v reducesTo_S8x256_S_d0_1 h_S_) main_v31 main_c_11
  let main_v33 : IVec S_ 1 := andi main_v28 main_v32
  fn_part2 (F := F) main_arg7 main_arg8 main_v33

def fn {F : FTy → Type} [FloatOps F] (main_arg0 : FVec F S8x65536x256 .f32) (main_arg1 : FVec F S8x256x256 .f32) (main_arg2 : FVec F S8x256 .f32) (main_arg3 : FVec F S8x256x256 .f32) (main_arg4 : FVec F S8x256 .f32) (main_arg5 : FVec F S8x256x256 .f32) (main_arg6 : FVec F S8x256 .f32) (main_arg7 : FVec F S8x256x1 .f32) (main_arg8 : FVec F S8x1 .f32) : IVec S_ 1 :=
  let main_v0 : FVec F S8x65536x256 .f32 := Host.absf main_arg0
  let main_cst : FVec F S_ .f32 := constant S_ .f32 0x7F800000#32
  let main_v1 : FVec F S8x65536x256 .f32 := broadcastInDim S8x65536x256 ![] bcast_S_S8x65536x256 main_cst
  let main_v2 : IVec S8x65536x256 1 := cmpf .olt main_v0 main_v1
  let main_c : IVec S_ 1 := constantI S_ 1 1#1
  let main_v3 : IVec S_ 1 := (fun x v => Host.reduce IntOp.andi x v reducesTo_S8x65536x256_S_d0_1_2 h_S_) main_v2 main_c
  let main_v4 : FVec F S8x256x256 .f32 := Host.absf main_arg1
  let main_cst_0 : FVec F S_ .f32 := constant S_ .f32 0x7F800000#32
  let main_v5 : FVec F S8x256x256 .f32 := broadcastInDim S8x256x256 ![] bcast_S_S8x256x256 main_cst_0
  let main_v6 : IVec S8x256x256 1 := cmpf .olt main_v4 main_v5
  let main_c_1 : IVec S_ 1 := constantI S_ 1 1#1
  let main_v7 : IVec S_ 1 := (fun x v => Host.reduce IntOp.andi x v reducesTo_S8x256x256_S_d0_1_2 h_S_) main_v6 main_c_1
  let main_v8 : IVec S_ 1 := andi main_v3 main_v7
  let main_v9 : FVec F S8x256 .f32 := Host.absf main_arg2
  let main_cst_2 : FVec F S_ .f32 := constant S_ .f32 0x7F800000#32
  let main_v10 : FVec F S8x256 .f32 := broadcastInDim S8x256 ![] bcast_S_S8x256 main_cst_2
  let main_v11 : IVec S8x256 1 := cmpf .olt main_v9 main_v10
  let main_c_3 : IVec S_ 1 := constantI S_ 1 1#1
  let main_v12 : IVec S_ 1 := (fun x v => Host.reduce IntOp.andi x v reducesTo_S8x256_S_d0_1 h_S_) main_v11 main_c_3
  let main_v13 : IVec S_ 1 := andi main_v8 main_v12
  let main_v14 : FVec F S8x256x256 .f32 := Host.absf main_arg3
  let main_cst_4 : FVec F S_ .f32 := constant S_ .f32 0x7F800000#32
  let main_v15 : FVec F S8x256x256 .f32 := broadcastInDim S8x256x256 ![] bcast_S_S8x256x256 main_cst_4
  let main_v16 : IVec S8x256x256 1 := cmpf .olt main_v14 main_v15
  fn_part1 (F := F) main_arg4 main_arg5 main_arg6 main_arg7 main_arg8 main_v13 main_v16
-- ==== Kernel.lean ====
abbrev S8x65536x256 : Shape := ⟨3, ![8, 65536, 256]⟩
abbrev S8x256x256 : Shape := ⟨3, ![8, 256, 256]⟩
abbrev S8x256 : Shape := ⟨2, ![8, 256]⟩
abbrev S8x256x1 : Shape := ⟨3, ![8, 256, 1]⟩
abbrev S8x1 : Shape := ⟨2, ![8, 1]⟩
abbrev S8x1x256 : Shape := ⟨3, ![8, 1, 256]⟩
abbrev S8x1x1 : Shape := ⟨3, ![8, 1, 1]⟩
abbrev S65536x1 : Shape := ⟨2, ![65536, 1]⟩
abbrev S8x1024x256 : Shape := ⟨3, ![8, 1024, 256]⟩
abbrev S1024x1 : Shape := ⟨2, ![1024, 1]⟩
abbrev S1x1024x256 : Shape := ⟨3, ![1, 1024, 256]⟩
abbrev S1024x256 : Shape := ⟨2, ![1024, 256]⟩
abbrev S1x256x256 : Shape := ⟨3, ![1, 256, 256]⟩
abbrev S256x256 : Shape := ⟨2, ![256, 256]⟩
abbrev S1x1x256 : Shape := ⟨3, ![1, 1, 256]⟩
abbrev S1x256 : Shape := ⟨2, ![1, 256]⟩
abbrev S1024 : Shape := ⟨1, ![1024]⟩
abbrev S1x1x1 : Shape := ⟨3, ![1, 1, 1]⟩
abbrev S1x1 : Shape := ⟨2, ![1, 1]⟩

abbrev nBuf : Space → Nat
  | .hbm => 19
  | .vmem => 13
  | .smem => 0
  | _ => 0

abbrev bufTy : (tb : Table) → Fin (tcTables nBuf tb) → BufTy
  | .hbm, ⟨0, _⟩ => ⟨S8x65536x256, .f32⟩
  | .hbm, ⟨1, _⟩ => ⟨S8x256x256, .f32⟩
  | .hbm, ⟨2, _⟩ => ⟨S8x256, .f32⟩
  | .hbm, ⟨3, _⟩ => ⟨S8x256x256, .f32⟩
  | .hbm, ⟨4, _⟩ => ⟨S8x256, .f32⟩
  | .hbm, ⟨5, _⟩ => ⟨S8x256x256, .f32⟩
  | .hbm, ⟨6, _⟩ => ⟨S8x256, .f32⟩
  | .hbm, ⟨7, _⟩ => ⟨S8x256x1, .f32⟩
  | .hbm, ⟨8, _⟩ => ⟨S8x1, .f32⟩
  | .hbm, ⟨9, _⟩ => ⟨S8x1x256, .f32⟩
  | .hbm, ⟨10, _⟩ => ⟨S8x1x256, .f32⟩
  | .hbm, ⟨11, _⟩ => ⟨S8x1x256, .f32⟩
  | .hbm, ⟨12, _⟩ => ⟨S8x1x1, .f32⟩
  | .hbm, ⟨13, _⟩ => ⟨S8x256x256, .bf16⟩
  | .hbm, ⟨14, _⟩ => ⟨S8x256x256, .bf16⟩
  | .hbm, ⟨15, _⟩ => ⟨S8x256x256, .bf16⟩
  | .hbm, ⟨16, _⟩ => ⟨S8x1x256, .f32⟩
  | .hbm, ⟨17, _⟩ => ⟨S8x1x256, .bf16⟩
  | .hbm, ⟨18, _⟩ => ⟨S65536x1, .f32⟩
  | .local _ .vmem, ⟨0, _⟩ => ⟨S8x1024x256, .f32⟩
  | .local _ .vmem, ⟨1, _⟩ => ⟨S8x1024x256, .f32⟩
  | .local _ .vmem, ⟨2, _⟩ => ⟨S8x256x256, .bf16⟩
  | .local _ .vmem, ⟨3, _⟩ => ⟨S8x1x256, .f32⟩
  | .local _ .vmem, ⟨4, _⟩ => ⟨S8x256x256, .bf16⟩
  | .local _ .vmem, ⟨5, _⟩ => ⟨S8x1x256, .f32⟩
  | .local _ .vmem, ⟨6, _⟩ => ⟨S8x256x256, .bf16⟩
  | .local _ .vmem, ⟨7, _⟩ => ⟨S8x1x256, .f32⟩
  | .local _ .vmem, ⟨8, _⟩ => ⟨S8x1x256, .bf16⟩
  | .local _ .vmem, ⟨9, _⟩ => ⟨S8x1x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | _, _ => ⟨S8x65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c8_i32 : BitVec 32 := 8#32
  let v4 : BitVec 32 := Scalar.addi c0_i32 c8_i32
  let c1_i32 : BitVec 32 := 1#32
  ⟨c0_i32, v4, c1_i32⟩
def k0_off1 (k0_t1 : Fin k0_t1_loop.trips) : Fin 3 → Nat :=
  let c0_i32_7 : BitVec 32 := 0#32
  let c0_i32 : BitVec 32 := 0#32
  let c1_i32 : BitVec 32 := 1#32
  let arg12 : BitVec 32 := Scf.iv c0_i32 c1_i32 k0_t1
  let c1_i32_6 : BitVec 32 := 1#32
  let v8 : BitVec 32 := Scalar.muli arg12 c1_i32_6
  let v9 : BitVec 32 := Scalar.addi c0_i32_7 v8
  let v10 : Index := Scalar.indexCast v9
  let c0_8 : Index := 0#32
  let c0_9 : Index := 0#32
  ![v10.toNat, 0, 0]
def k0_off2 (k0_t1 : Fin k0_t1_loop.trips) : Fin 3 → Nat :=
  let c0_i32_7 : BitVec 32 := 0#32
  let c0_i32 : BitVec 32 := 0#32
  let c1_i32 : BitVec 32 := 1#32
  let arg12 : BitVec 32 := Scf.iv c0_i32 c1_i32 k0_t1
  let c1_i32_6 : BitVec 32 := 1#32
  let v8 : BitVec 32 := Scalar.muli arg12 c1_i32_6
  let v9 : BitVec 32 := Scalar.addi c0_i32_7 v8
  let v14 : Index := Scalar.indexCast v9
  let c0_10 : Index := 0#32
  let c0_11 : Index := 0#32
  ![v14.toNat, 0, 0]
def k0_off3 (k0_t1 : Fin k0_t1_loop.trips) : Fin 3 → Nat :=
  let c0_i32_7 : BitVec 32 := 0#32
  let c0_i32 : BitVec 32 := 0#32
  let c1_i32 : BitVec 32 := 1#32
  let arg12 : BitVec 32 := Scf.iv c0_i32 c1_i32 k0_t1
  let c1_i32_6 : BitVec 32 := 1#32
  let v8 : BitVec 32 := Scalar.muli arg12 c1_i32_6
  let v9 : BitVec 32 := Scalar.addi c0_i32_7 v8
  let v18 : Index := Scalar.indexCast v9
  let c0_13 : Index := 0#32
  let c0_14 : Index := 0#32
  ![v18.toNat, 0, 0]
def k0_off4 (k0_t1 : Fin k0_t1_loop.trips) : Fin 3 → Nat :=
  let c0_i32_7 : BitVec 32 := 0#32
  let c0_i32 : BitVec 32 := 0#32
  let c1_i32 : BitVec 32 := 1#32
  let arg12 : BitVec 32 := Scf.iv c0_i32 c1_i32 k0_t1
  let c1_i32_6 : BitVec 32 := 1#32
  let v8 : BitVec 32 := Scalar.muli arg12 c1_i32_6
  let v9 : BitVec 32 := Scalar.addi c0_i32_7 v8
  let v66 : Index := Scalar.indexCast v9
  let c0_34 : Index := 0#32
  let c0_35 : Index := 0#32
  ![v66.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S8x256_S8x1x256 : S8x256.ShapeCasts S8x1x256
  shapeCasts_S8x1_S8x1x1 : S8x1.ShapeCasts S8x1x1
  bitsLt_bf16_f32 : FTy.bits .bf16 < FTy.bits .f32
  transposes_S8x256x1_S8x1x256_0_2_1 : S8x256x1.Transposes [0, 2, 1] S8x1x256
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  h_S1x1024x256 : 0 < S1x1024x256.numel
  shapeCasts_S1x1024x256_S1024x256 : S1x1024x256.ShapeCasts S1024x256
  h_S1x256x256 : 0 < S1x256x256.numel
  shapeCasts_S1x256x256_S256x256 : S1x256x256.ShapeCasts S256x256
  h_S1x1x256 : 0 < S1x1x256.numel
  shapeCasts_S1x1x256_S1x256 : S1x1x256.ShapeCasts S1x256
  broadcasts_S1x256_S1024x256 : S1x256.Broadcasts S1024x256
  reduces_S1024x256_S1024 : S1024x256.Reduces [1] S1024
  shapeCasts_S1024_S1024x1 : S1024.ShapeCasts S1024x1
  h_S1x1x1 : 0 < S1x1x1.numel
  shapeCasts_S1x1x1_S1x1 : S1x1x1.ShapeCasts S1x1
  broadcasts_S1x1_S1024x1 : S1x1.Broadcasts S1024x1
  dot_S1024x256_S256x256_S1024x256_1_0_0_1_n_n_wf : DotDims.WF S1024x256 S256x256 S1024x256 [1] [0] [0] [1] [] []
  hrank0 : 0 < grid0.rank
  k0_t1_ok : k0_t1_loop.OK
  k0_off1_inb : ∀ k0_t1 : Fin k0_t1_loop.trips, ∀ a, (k0_off1 k0_t1) a + S1x1024x256.size a ≤ S8x1024x256.size a
  k0_off2_inb : ∀ k0_t1 : Fin k0_t1_loop.trips, ∀ a, (k0_off2 k0_t1) a + S1x256x256.size a ≤ S8x256x256.size a
  k0_off3_inb : ∀ k0_t1 : Fin k0_t1_loop.trips, ∀ a, (k0_off3 k0_t1) a + S1x1x256.size a ≤ S8x1x256.size a
  k0_off4_inb : ∀ k0_t1 : Fin k0_t1_loop.trips, ∀ a, (k0_off4 k0_t1) a + S1x1x1.size a ≤ S8x1x1.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1024x256.size a ≤ S8x65536x256.size a
  hwx0_0 : ∀ i : grid0.Coords, EltTy.bits .f32 = 32 ∨ (Rect.block (s := S8x65536x256) S8x1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x256x256.size a ≤ S8x256x256.size a
  hwx0_1 : ∀ i : grid0.Coords, EltTy.bits .bf16 = 32 ∨ (Rect.block (s := S8x256x256) S8x256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x1x256.size a ≤ S8x1x256.size a
  hwx0_2 : ∀ i : grid0.Coords, EltTy.bits .f32 = 32 ∨ (Rect.block (s := S8x1x256) S8x1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x256x256.size a ≤ S8x256x256.size a
  hwx0_3 : ∀ i : grid0.Coords, EltTy.bits .bf16 = 32 ∨ (Rect.block (s := S8x256x256) S8x256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x1x256.size a ≤ S8x1x256.size a
  hwx0_4 : ∀ i : grid0.Coords, EltTy.bits .f32 = 32 ∨ (Rect.block (s := S8x1x256) S8x1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x256x256.size a ≤ S8x256x256.size a
  hwx0_5 : ∀ i : grid0.Coords, EltTy.bits .bf16 = 32 ∨ (Rect.block (s := S8x256x256) S8x256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8x1x256.size a ≤ S8x1x256.size a
  hwx0_6 : ∀ i : grid0.Coords, EltTy.bits .f32 = 32 ∨ (Rect.block (s := S8x1x256) S8x1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8x1x256.size a ≤ S8x1x256.size a
  hwx0_7 : ∀ i : grid0.Coords, EltTy.bits .bf16 = 32 ∨ (Rect.block (s := S8x1x256) S8x1x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S8x1x1.size a ≤ S8x1x1.size a
  hwx0_8 : ∀ i : grid0.Coords, EltTy.bits .f32 = 32 ∨ (Rect.block (s := S8x1x1) S8x1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x1.size a ≤ S65536x1.size a
  hwx0_9 : ∀ i : grid0.Coords, EltTy.bits .f32 = 32 ∨ (Rect.block (s := S65536x1) S1024x1.size (cc0_transform_9 i) (hinb0_9 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_arg0) S8x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S8x256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S8x256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S8x1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S8x256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S8x1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S8x1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S8x1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S1024x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S8x65536x256 : Shape := ⟨3, ![8, 65536, 256]⟩
abbrev S8x256x256 : Shape := ⟨3, ![8, 256, 256]⟩
abbrev S8x256 : Shape := ⟨2, ![8, 256]⟩
abbrev S8x256x1 : Shape := ⟨3, ![8, 256, 1]⟩
abbrev S8x1 : Shape := ⟨2, ![8, 1]⟩
abbrev S8x1x256 : Shape := ⟨3, ![8, 1, 256]⟩
abbrev S_ : Shape := ⟨0, ![]⟩
abbrev S8x65536x1 : Shape := ⟨3, ![8, 65536, 1]⟩
abbrev S8x1x1 : Shape := ⟨3, ![8, 1, 1]⟩
abbrev S65536x1 : Shape := ⟨2, ![65536, 1]⟩

abbrev nBuf : Space → Nat
  | .hbm => 56
  | .vmem => 0
  | .smem => 0
  | _ => 0

abbrev bufTy : (tb : Table) → Fin (tcTables nBuf tb) → BufTy
  | .hbm, ⟨0, _⟩ => ⟨S8x65536x256, .f32⟩
  | .hbm, ⟨1, _⟩ => ⟨S8x256x256, .f32⟩
  | .hbm, ⟨2, _⟩ => ⟨S8x256, .f32⟩
  | .hbm, ⟨3, _⟩ => ⟨S8x256x256, .f32⟩
  | .hbm, ⟨4, _⟩ => ⟨S8x256, .f32⟩
  | .hbm, ⟨5, _⟩ => ⟨S8x256x256, .f32⟩
  | .hbm, ⟨6, _⟩ => ⟨S8x256, .f32⟩
  | .hbm, ⟨7, _⟩ => ⟨S8x256x1, .f32⟩
  | .hbm, ⟨8, _⟩ => ⟨S8x1, .f32⟩
  | .hbm, ⟨9, _⟩ => ⟨S8x65536x256, .f32⟩
  | .hbm, ⟨10, _⟩ => ⟨S8x1x256, .f32⟩
  | .hbm, ⟨11, _⟩ => ⟨S8x65536x256, .f32⟩
  | .hbm, ⟨12, _⟩ => ⟨S8x65536x256, .f32⟩
  | .hbm, ⟨13, _⟩ => ⟨S_, .f32⟩
  | .hbm, ⟨14, _⟩ => ⟨S8x65536x256, .f32⟩
  | .hbm, ⟨15, _⟩ => ⟨S8x65536x256, .i1⟩
  | .hbm, ⟨16, _⟩ => ⟨S_, .f32⟩
  | .hbm, ⟨17, _⟩ => ⟨S8x65536x256, .f32⟩
  | .hbm, ⟨18, _⟩ => ⟨S8x65536x256, .f32⟩
  | .hbm, ⟨19, _⟩ => ⟨S8x65536x256, .f32⟩
  | .hbm, ⟨20, _⟩ => ⟨S8x65536x256, .f32⟩
  | .hbm, ⟨21, _⟩ => ⟨S8x1x256, .f32⟩
  | .hbm, ⟨22, _⟩ => ⟨S8x65536x256, .f32⟩
  | .hbm, ⟨23, _⟩ => ⟨S8x65536x256, .f32⟩
  | .hbm, ⟨24, _⟩ => ⟨S_, .f32⟩
  | .hbm, ⟨25, _⟩ => ⟨S8x65536x256, .f32⟩
  | .hbm, ⟨26, _⟩ => ⟨S8x65536x256, .i1⟩
  | .hbm, ⟨27, _⟩ => ⟨S_, .f32⟩
  | .hbm, ⟨28, _⟩ => ⟨S8x65536x256, .f32⟩
  | .hbm, ⟨29, _⟩ => ⟨S8x65536x256, .f32⟩
  | .hbm, ⟨30, _⟩ => ⟨S8x65536x256, .f32⟩
  | .hbm, ⟨31, _⟩ => ⟨S8x65536x256, .f32⟩
  | .hbm, ⟨32, _⟩ => ⟨S8x1x256, .f32⟩
  | .hbm, ⟨33, _⟩ => ⟨S8x65536x256, .f32⟩
  | .hbm, ⟨34, _⟩ => ⟨S8x65536x256, .f32⟩
  | .hbm, ⟨35, _⟩ => ⟨S_, .f32⟩
  | .hbm, ⟨36, _⟩ => ⟨S8x65536x256, .f32⟩
  | .hbm, ⟨37, _⟩ => ⟨S8x65536x256, .i1⟩
  | .hbm, ⟨38, _⟩ => ⟨S_, .f32⟩
  | .hbm, ⟨39, _⟩ => ⟨S8x65536x256, .f32⟩
  | .hbm, ⟨40, _⟩ => ⟨S8x65536x256, .f32⟩
  | .hbm, ⟨41, _⟩ => ⟨S8x65536x256, .f32⟩
  | .hbm, ⟨42, _⟩ => ⟨S8x65536x1, .f32⟩
  | .hbm, ⟨43, _⟩ => ⟨S8x1x1, .f32⟩
  | .hbm, ⟨44, _⟩ => ⟨S8x65536x1, .f32⟩
  | .hbm, ⟨45, _⟩ => ⟨S8x65536x1, .f32⟩
  | .hbm, ⟨46, _⟩ => ⟨S_, .f32⟩
  | .hbm, ⟨47, _⟩ => ⟨S65536x1, .f32⟩
  | .hbm, ⟨48, _⟩ => ⟨S65536x1, .f32⟩
  | .hbm, ⟨49, _⟩ => ⟨S65536x1, .f32⟩
  | .hbm, ⟨50, _⟩ => ⟨S_, .f32⟩
  | .hbm, ⟨51, _⟩ => ⟨S65536x1, .f32⟩
  | .hbm, ⟨52, _⟩ => ⟨S65536x1, .f32⟩
  | .hbm, ⟨53, _⟩ => ⟨S_, .f32⟩
  | .hbm, ⟨54, _⟩ => ⟨S65536x1, .f32⟩
  | .hbm, ⟨55, _⟩ => ⟨S65536x1, .f32⟩
  | _, _ => ⟨S8x65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩

abbrev nD : Nat := 1
abbrev τ : Topo := Topo.v7x

variable {F : FTy → Type} [FloatOps F]

class Facts₀ : Prop where
  bcast_S8x256_S8x1x256_0_2 : S8x256.BroadcastsInDim S8x1x256 (![0, 2] : Fin 2 → Fin S8x1x256.rank)
  bcast_S8x1x256_S8x65536x256_0_1_2 : S8x1x256.BroadcastsInDim S8x65536x256 (![0, 1, 2] : Fin 3 → Fin S8x65536x256.rank)
  bcast_S_S8x65536x256 : S_.BroadcastsInDim S8x65536x256 (![] : Fin 0 → Fin S8x65536x256.rank)
  bcast_S8x1_S8x1x1_0_2 : S8x1.BroadcastsInDim S8x1x1 (![0, 2] : Fin 2 → Fin S8x1x1.rank)
  bcast_S8x1x1_S8x65536x1_0_1_2 : S8x1x1.BroadcastsInDim S8x65536x1 (![0, 1, 2] : Fin 3 → Fin S8x65536x1.rank)
  reducesTo_S8x65536x1_S65536x1_d0 : S8x65536x1.ReducesTo [0] S65536x1
  h_S_ : 0 < S_.numel
  bcast_S_S65536x1 : S_.BroadcastsInDim S65536x1 (![] : Fin 0 → Fin S65536x1.rank)
  dot_S8x65536x256_S8x256x256_S8x65536x256_2_1_1_2_0_0_wf : DotDims.WF S8x65536x256 S8x256x256 S8x65536x256 [2] [1] [1] [2] [0] [0]
  dot_S8x65536x256_S8x256x1_S8x65536x1_2_1_1_2_0_0_wf : DotDims.WF S8x65536x256 S8x256x1 S8x65536x1 [2] [1] [1] [2] [0] [0]

variable [Facts₀]

def dot_S8x65536x256_S8x256x256_S8x65536x256_2_1_1_2_0_0 : DotDims S8x65536x256 S8x256x256 S8x65536x256 where
  lhsContracting := [2]
  rhsContracting := [1]
  lhsNonContracting := [1]
  rhsNonContracting := [2]
  lhsBatch := [0]
  rhsBatch := [0]
  wf := dot_S8x65536x256_S8x256x256_S8x65536x256_2_1_1_2_0_0_wf
def dot_S8x65536x256_S8x256x1_S8x65536x1_2_1_1_2_0_0 : DotDims S8x65536x256 S8x256x1 S8x65536x1 where
  lhsContracting := [2]
  rhsContracting := [1]
  lhsNonContracting := [1]
  rhsNonContracting := [2]
  lhsBatch := [0]
  rhsBatch := [0]
  wf := dot_S8x65536x256_S8x256x1_S8x65536x1_2_1_1_2_0_0_wf

class Facts : Prop extends Facts₀ where

variable [Facts]
-- ==== Proof.Accumulator.lean ====
/-
  The accumulator of one grid point, for any float instance.

  A grid point holds a block of 1024 batch rows of every species. Its body zeroes a column accumulator, then
  runs over the eight species in order; the trip of species `k` reads that species' slice of the input block and
  of each weight and bias, computes the species' energy column for the 1024 rows, and adds it to the accumulator;
  after the last trip the logistic function of the accumulator is stored as the point's output block.

  Stated here: what one trip adds (`tripVal`), the accumulator after `n` trips as a plain recursion (`acc`), that
  the scratch column read after `n` trips is `acc n` (`read_after`, by induction on the trips), and so that the
  block a point writes is the logistic payload of `acc` at the last trip (`out_eq`).
-/
import proofs.«167122_j53979148976569_2_alg».proof.Proof.Gen.KernelIdeal.Frame
import Idealize.ShloMosaic.Lib.Pipeline.Value

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The offsets of a whole column block are all zero. -/
theorem hz : (![0, 0] : Fin 2 → Nat) = fun _ => 0 := funext fun a => by fin_cases a <;> rfl

/-- The whole column block is covered by one store through it. -/
theorem cover_whole (w : Vec F S1024x1 .f32) (y : S1024x1.Idx) :
    ∃ p ∈ [(⟨Rect.unit (s := S1024x1) ![0, 0] S1024x1.size inb_S1024x1_S1024x1_0_0, w⟩ : View.Piece (Elt F) S1024x1 .f32)], y ∈ p.1.set :=
  ⟨_, List.mem_singleton_self _, View.mem_set_unit_zero hz inb_S1024x1_S1024x1_0_0 y⟩

/-- Species `k`'s slice of the input block: its 1024 rows of 256 features. -/
def rowsOf (x : Vec F S8x1024x256 .f32) (k : Fin k0_t1_loop.trips) : Vec F S1x1024x256 .f32 :=
  View.ld x (Rect.unit (s := S8x1024x256) (k0_off1 k) S1x1024x256.size (k0_off1_inb k))

/-- Species `k`'s 256×256 matrix of a stack of eight. -/
def matOf {e : EltTy} (x : Vec F S8x256x256 e) (k : Fin k0_t1_loop.trips) : Vec F S1x256x256 e :=
  View.ld x (Rect.unit (s := S8x256x256) (k0_off2 k) S1x256x256.size (k0_off2_inb k))

/-- Species `k`'s row of 256 of a stack of eight. -/
def rowOf {e : EltTy} (x : Vec F S8x1x256 e) (k : Fin k0_t1_loop.trips) : Vec F S1x1x256 e :=
  View.ld x (Rect.unit (s := S8x1x256) (k0_off3 k) S1x1x256.size (k0_off3_inb k))

/-- Species `k`'s entry of a stack of eight scalars. -/
def oneOf (x : Vec F S8x1x1 .f32) (k : Fin k0_t1_loop.trips) : Vec F S1x1x1 .f32 :=
  View.ld x (Rect.unit (s := S8x1x1) (k0_off4 k) S1x1x1.size (k0_off4_inb k))

/-- Species `k`'s trip: the accumulator `a` plus that species' energy column, computed from the species' slice of
    the input block `x0`, of the three weight stacks `x1 x3 x5`, of the three bias stacks `x2 x4 x6`, of the last
    layer's weight row `x7` and of its bias `x8`. -/
def tripVal (x0 : Vec F S8x1024x256 .f32) (x1 : Vec F S8x256x256 .bf16) (x2 : Vec F S8x1x256 .f32) (x3 : Vec F S8x256x256 .bf16) (x4 : Vec F S8x1x256 .f32) (x5 : Vec F S8x256x256 .bf16) (x6 : Vec F S8x1x256 .f32) (x7 : Vec F S8x1x256 .bf16) (x8 : Vec F S8x1x1 .f32)
    (k : Fin k0_t1_loop.trips) (a : Vec F S1024x1 .f32) : Vec F S1024x1 .f32 :=
  k0_pay2
    (k0_pay4 (rowsOf x0 k) (matOf x1 k) (rowOf x2 k) (matOf x3 k) (rowOf x4 k))
    (k0_pay5 (matOf x5 k)) (rowOf x6 k) (rowOf x7 k) (oneOf x8 k) a

/-- The accumulator after the first `n` species: zero, then one species added per trip. -/
def acc (x0 : Vec F S8x1024x256 .f32) (x1 : Vec F S8x256x256 .bf16) (x2 : Vec F S8x1x256 .f32) (x3 : Vec F S8x256x256 .bf16) (x4 : Vec F S8x1x256 .f32) (x5 : Vec F S8x256x256 .bf16) (x6 : Vec F S8x1x256 .f32) (x7 : Vec F S8x1x256 .bf16) (x8 : Vec F S8x1x1 .f32) : ℕ → Vec F S1024x1 .f32
  | 0 => k0_pay1
  | n + 1 => if h : n < k0_t1_loop.trips then tripVal x0 x1 x2 x3 x4 x5 x6 x7 x8 ⟨n, h⟩ (acc x0 x1 x2 x3 x4 x5 x6 x7 x8 n) else acc x0 x1 x2 x3 x4 x5 x6 x7 x8 n

/-- One trip stores, through the whole accumulator, its contents as found plus the species' energy column. -/
theorem trip_pieces (c : Dev nD) (i : grid0.Coords) (arg1 : Memref sig .tc .vmem S8x1024x256 .f32) (harg1 : arg1.IsWhole) (arg2 : Memref sig .tc .vmem S8x256x256 .bf16) (harg2 : arg2.IsWhole) (arg3 : Memref sig .tc .vmem S8x1x256 .f32) (harg3 : arg3.IsWhole) (arg4 : Memref sig .tc .vmem S8x256x256 .bf16) (harg4 : arg4.IsWhole) (arg5 : Memref sig .tc .vmem S8x1x256 .f32) (harg5 : arg5.IsWhole) (arg6 : Memref sig .tc .vmem S8x256x256 .bf16) (harg6 : arg6.IsWhole) (arg7 : Memref sig .tc .vmem S8x1x256 .f32) (harg7 : arg7.IsWhole) (arg8 : Memref sig .tc .vmem S8x1x256 .bf16) (harg8 : arg8.IsWhole) (arg9 : Memref sig .tc .vmem S8x1x1 .f32) (harg9 : arg9.IsWhole) (arg10 : Memref sig .tc .vmem S1024x1 .f32) (harg10 : arg10.IsWhole) (arg11 : Memref sig .tc .vmem S1024x1 .f32) (harg11 : arg11.IsWhole)
    (x0 : Vec F S8x1024x256 .f32) (x1 : Vec F S8x256x256 .bf16) (x2 : Vec F S8x1x256 .f32) (x3 : Vec F S8x256x256 .bf16) (x4 : Vec F S8x1x256 .f32) (x5 : Vec F S8x256x256 .bf16) (x6 : Vec F S8x1x256 .f32) (x7 : Vec F S8x1x256 .bf16) (x8 : Vec F S8x1x1 .f32)
    (k : Fin k0_t1_loop.trips) (f : BufTy.Contents (Elt F) arg11.view.ty) :
    tripL_k0_t1 (F := F) Variants.none c none i arg1 harg1 arg2 harg2 arg3 harg3 arg4 harg4 arg5 harg5 arg6 harg6 arg7 harg7 arg8 harg8 arg9 harg9 arg10 harg10 arg11 harg11 (harg1.unread x0) (harg2.unread x1) (harg3.unread x2) (harg4.unread x3) (harg5.unread x4) (harg6.unread x5) (harg7.unread x6) (harg8.unread x7) (harg9.unread x8) k f
      = [⟨Rect.unit (s := S1024x1) ![0, 0] S1024x1.size inb_S1024x1_S1024x1_0_0, tripVal x0 x1 x2 x3 x4 x5 x6 x7 x8 k (arg11.view.read (Elt F) f)⟩] := by
  unfold tripL_k0_t1
  unfold trip_k0_t1
  dsimp only
  sl_unfold_words
  simp only [View.readAt_eq_ld, Memref.IsWhole.read_unread, View.ld_unit_zero (S := S1024x1) hz]
  rfl

/-- After `n` trips, run from the zeroed accumulator, the accumulator reads `acc n`: each trip's store goes through
    the whole column, so what it leaves is its payload at what the trips before left. -/
theorem read_after (c : Dev nD) (i : grid0.Coords) (arg1 : Memref sig .tc .vmem S8x1024x256 .f32) (harg1 : arg1.IsWhole) (arg2 : Memref sig .tc .vmem S8x256x256 .bf16) (harg2 : arg2.IsWhole) (arg3 : Memref sig .tc .vmem S8x1x256 .f32) (harg3 : arg3.IsWhole) (arg4 : Memref sig .tc .vmem S8x256x256 .bf16) (harg4 : arg4.IsWhole) (arg5 : Memref sig .tc .vmem S8x1x256 .f32) (harg5 : arg5.IsWhole) (arg6 : Memref sig .tc .vmem S8x256x256 .bf16) (harg6 : arg6.IsWhole) (arg7 : Memref sig .tc .vmem S8x1x256 .f32) (harg7 : arg7.IsWhole) (arg8 : Memref sig .tc .vmem S8x1x256 .bf16) (harg8 : arg8.IsWhole) (arg9 : Memref sig .tc .vmem S8x1x1 .f32) (harg9 : arg9.IsWhole) (arg10 : Memref sig .tc .vmem S1024x1 .f32) (harg10 : arg10.IsWhole) (arg11 : Memref sig .tc .vmem S1024x1 .f32) (harg11 : arg11.IsWhole)
    (x0 : Vec F S8x1024x256 .f32) (x1 : Vec F S8x256x256 .bf16) (x2 : Vec F S8x1x256 .f32) (x3 : Vec F S8x256x256 .bf16) (x4 : Vec F S8x1x256 .f32) (x5 : Vec F S8x256x256 .bf16) (x6 : Vec F S8x1x256 .f32) (x7 : Vec F S8x1x256 .bf16) (x8 : Vec F S8x1x1 .f32) :
    ∀ n : ℕ, n ≤ k0_t1_loop.trips →
      arg11.view.read (Elt F) (arg11.view.writes (Elt F)
          (arg11.view.writes (Elt F) arg11.view.junk [⟨Rect.unit (s := S1024x1) ![0, 0] S1024x1.size inb_S1024x1_S1024x1_0_0, k0_pay1⟩])
          (pb_k0_t1 (F := F) Variants.none c none i arg1 harg1 arg2 harg2 arg3 harg3 arg4 harg4 arg5 harg5 arg6 harg6 arg7 harg7 arg8 harg8 arg9 harg9 arg10 harg10 arg11 harg11 (harg1.unread x0) (harg2.unread x1) (harg3.unread x2) (harg4.unread x3) (harg5.unread x4) (harg6.unread x5) (harg7.unread x6) (harg8.unread x7) (harg9.unread x8)
            (arg11.view.writes (Elt F) arg11.view.junk [⟨Rect.unit (s := S1024x1) ![0, 0] S1024x1.size inb_S1024x1_S1024x1_0_0, k0_pay1⟩]) n))
        = acc x0 x1 x2 x3 x4 x5 x6 x7 x8 n := by
  intro n
  induction n with
  | zero =>
    intro _
    rw [pb_k0_t1, View.writes_nil, View.read_writes_eq_canon _ _ _ (cover_whole _), View.canon_unit_zero hz]
    rfl
  | succ n ih =>
    intro hn
    have h : n < k0_t1_loop.trips := hn
    rw [show pb_k0_t1 (F := F) Variants.none c none i arg1 harg1 arg2 harg2 arg3 harg3 arg4 harg4 arg5 harg5 arg6 harg6 arg7 harg7 arg8 harg8 arg9 harg9 arg10 harg10 arg11 harg11 (harg1.unread x0) (harg2.unread x1) (harg3.unread x2) (harg4.unread x3) (harg5.unread x4) (harg6.unread x5) (harg7.unread x6) (harg8.unread x7) (harg9.unread x8)
            (arg11.view.writes (Elt F) arg11.view.junk [⟨Rect.unit (s := S1024x1) ![0, 0] S1024x1.size inb_S1024x1_S1024x1_0_0, k0_pay1⟩]) (n + 1) = _ from
          pb_k0_t1_succ (F := F) Variants.none c none i arg1 harg1 arg2 harg2 arg3 harg3 arg4 harg4 arg5 harg5 arg6 harg6 arg7 harg7 arg8 harg8 arg9 harg9 arg10 harg10 arg11 harg11 (harg1.unread x0) (harg2.unread x1) (harg3.unread x2) (harg4.unread x3) (harg5.unread x4) (harg6.unread x5) (harg7.unread x6) (harg8.unread x7) (harg9.unread x8)
            (arg11.view.writes (Elt F) arg11.view.junk [⟨Rect.unit (s := S1024x1) ![0, 0] S1024x1.size inb_S1024x1_S1024x1_0_0, k0_pay1⟩]) ⟨n, h⟩]
    rw [View.writes_append, trip_pieces, View.read_writes_eq_canon _ _ _ (cover_whole _), View.canon_unit_zero hz,
      ih (Nat.le_of_lt h)]
    show _ = dite _ _ _
    rw [dif_pos h]

/-- The block a point writes back is the logistic payload of the accumulator after every species. -/
theorem out_eq (c : Dev nD) (i : grid0.Coords) (arg1 : Memref sig .tc .vmem S8x1024x256 .f32) (harg1 : arg1.IsWhole) (arg2 : Memref sig .tc .vmem S8x256x256 .bf16) (harg2 : arg2.IsWhole) (arg3 : Memref sig .tc .vmem S8x1x256 .f32) (harg3 : arg3.IsWhole) (arg4 : Memref sig .tc .vmem S8x256x256 .bf16) (harg4 : arg4.IsWhole) (arg5 : Memref sig .tc .vmem S8x1x256 .f32) (harg5 : arg5.IsWhole) (arg6 : Memref sig .tc .vmem S8x256x256 .bf16) (harg6 : arg6.IsWhole) (arg7 : Memref sig .tc .vmem S8x1x256 .f32) (harg7 : arg7.IsWhole) (arg8 : Memref sig .tc .vmem S8x1x256 .bf16) (harg8 : arg8.IsWhole) (arg9 : Memref sig .tc .vmem S8x1x1 .f32) (harg9 : arg9.IsWhole) (arg10 : Memref sig .tc .vmem S1024x1 .f32) (harg10 : arg10.IsWhole) (arg11 : Memref sig .tc .vmem S1024x1 .f32) (harg11 : arg11.IsWhole)
    (x0 : Vec F S8x1024x256 .f32) (x1 : Vec F S8x256x256 .bf16) (x2 : Vec F S8x1x256 .f32) (x3 : Vec F S8x256x256 .bf16) (x4 : Vec F S8x1x256 .f32) (x5 : Vec F S8x256x256 .bf16) (x6 : Vec F S8x1x256 .f32) (x7 : Vec F S8x1x256 .bf16) (x8 : Vec F S8x1x1 .f32) :
    out0_A_9 c i arg1 harg1 arg2 harg2 arg3 harg3 arg4 harg4 arg5 harg5 arg6 harg6 arg7 harg7 arg8 harg8 arg9 harg9 arg10 harg10 arg11 harg11 x0 x1 x2 x3 x4 x5 x6 x7 x8 = k0_pay3 (acc x0 x1 x2 x3 x4 x5 x6 x7 x8 k0_t1_loop.trips) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 x0 x1 x2 x3 x4 x5 x6 x7 x8)]
  unfold kernelRun0_A
  dsimp only
  sl_unfold_words
  rw [View.canon_unit_zero hz]
  simp only [View.readAt_eq_ld, View.ld_unit_zero (S := S1024x1) hz]
  rw [View.writes_append]
  exact congrArg k0_pay3 (read_after c i arg1 harg1 arg2 harg2 arg3 harg3 arg4 harg4 arg5 harg5 arg6 harg6 arg7 harg7 arg8 harg8 arg9 harg9 arg10 harg10 arg11 harg11 x0 x1 x2 x3 x4 x5 x6 x7 x8 _ (Nat.le_refl _))

end Cert.KernelIdeal.Acc

end
-- ==== Proof.Spec.lean ====
/-
  The function both programs compute, at the extended reals.

  There are eight species. For a batch row `r` and a species `s` the row's 256 features go through three dense
  layers of 256 units, each followed by the leaky activation (the value itself where it is at least zero, one
  tenth of it — the single-precision word nearest to 0.1, the same word in both programs — otherwise), and a last
  layer to one unit: the species' energy. The result at row `r` is the logistic function of the sum of the
  eight energies.

  Floating-point words are kept as words (`Ideal.ofBits`): both programs carry the same ones, so none is evaluated.
  The only law needed between the two programs is that a sum accumulated one term at a time is the sum
  (`running_sum`): addition on the extended reals is associative and commutative also at the infinities, so
  no finiteness of the inputs is used.
-/
import Idealize.ShloMosaic.PureOps.Ideal
import Idealize.ShloMosaic.Lib.ValueIdx

noncomputable section

namespace Cert.Mlp

open Idealize.ShloMosaic

/-- The leaky activation: `x` where `x ≥ 0` (the float comparison), else the slope word times `x`. -/
def leaky (x : EReal) : EReal :=
  Scalar.select (FloatOps.cmpf (F := Ideal) (φ := .f32) .oge x (Ideal.ofBits .f32 0x00000000#32)) x
    ((Ideal.ofBits .f32 0x3DCCCCCD#32 : EReal) * x)

/-- Unit `u` of a dense layer with the activation: `leaky (∑ₖ x k · W k u + β u)`. -/
def dense (x : Fin 256 → EReal) (W : Fin 256 → Fin 256 → EReal) (β : Fin 256 → EReal) (u : Fin 256) : EReal :=
  leaky (∑ k : Fin 256, x k * W k u + β u)

/-- One species' energy of a row `x`: three dense layers, then the last layer to one unit. -/
def energy (x : Fin 256 → EReal) (W1 : Fin 256 → Fin 256 → EReal) (β1 : Fin 256 → EReal)
    (W2 : Fin 256 → Fin 256 → EReal) (β2 : Fin 256 → EReal) (W3 : Fin 256 → Fin 256 → EReal) (β3 : Fin 256 → EReal)
    (w4 : Fin 256 → EReal) (β4 : EReal) : EReal :=
  ∑ k : Fin 256, dense (dense (dense x W1 β1) W2 β2) W3 β3 k * w4 k + β4

/-- The result at batch row `r`: the logistic function of the zero word plus the eight species' energies. -/
def result (B : Fin 8 → Fin 65536 → Fin 256 → EReal)
    (W1 : Fin 8 → Fin 256 → Fin 256 → EReal) (β1 : Fin 8 → Fin 256 → EReal)
    (W2 : Fin 8 → Fin 256 → Fin 256 → EReal) (β2 : Fin 8 → Fin 256 → EReal)
    (W3 : Fin 8 → Fin 256 → Fin 256 → EReal) (β3 : Fin 8 → Fin 256 → EReal)
    (w4 : Fin 8 → Fin 256 → EReal) (β4 : Fin 8 → EReal) (r : Fin 65536) : EReal :=
  Ideal.logistic ((Ideal.ofBits .f32 0x00000000#32 : EReal)
    + ∑ s : Fin 8, energy (B s r) (W1 s) (β1 s) (W2 s) (β2 s) (W3 s) (β3 s) (w4 s) (β4 s))

/-- The result array as ONE function of the nine argument arrays: the features `[8, 65536, 256]`, three weight stacks
    `[8, 256, 256]`, three bias stacks `[8, 256]`, the last layer's weights `[8, 256, 1]` and biases `[8, 1]`; the result
    is the column `[65536, 1]`. Both programs' runs are stated with this term. -/
def resultArr (a0 : (⟨3, ![8, 65536, 256]⟩ : Shape).Idx → EReal) (a1 : (⟨3, ![8, 256, 256]⟩ : Shape).Idx → EReal)
    (a2 : (⟨2, ![8, 256]⟩ : Shape).Idx → EReal) (a3 : (⟨3, ![8, 256, 256]⟩ : Shape).Idx → EReal)
    (a4 : (⟨2, ![8, 256]⟩ : Shape).Idx → EReal) (a5 : (⟨3, ![8, 256, 256]⟩ : Shape).Idx → EReal)
    (a6 : (⟨2, ![8, 256]⟩ : Shape).Idx → EReal) (a7 : (⟨3, ![8, 256, 1]⟩ : Shape).Idx → EReal)
    (a8 : (⟨2, ![8, 1]⟩ : Shape).Idx → EReal) : (⟨2, ![65536, 1]⟩ : Shape).Idx → EReal :=
  fun i => result (fun s r f => a0 (ValueIdx.ix3 s r f)) (fun s f v => a1 (ValueIdx.ix3 s f v)) (fun s v => a2 (ValueIdx.ix2 s v))
    (fun s f v => a3 (ValueIdx.ix3 s f v)) (fun s v => a4 (ValueIdx.ix2 s v)) (fun s f v => a5 (ValueIdx.ix3 s f v))
    (fun s v => a6 (ValueIdx.ix2 s v)) (fun s v => a7 (ValueIdx.ix3 s v (0 : Fin 1))) (fun s => a8 (ValueIdx.ix2 s (0 : Fin 1))) (i 0)

/-- A sum accumulated one term at a time, from `z`, is `z` plus the sum of the terms: associativity of addition. -/
theorem running_sum (z : EReal) (a : ℕ → EReal) (t : ℕ → EReal) (h0 : t 0 = z) (hs : ∀ n, t (n + 1) = t n + a n) :
    ∀ n, t n = z + ∑ k ∈ Finset.range n, a k
  | 0 => by rw [h0, Finset.range_zero, Finset.sum_empty, add_zero]
  | n + 1 => by rw [hs, running_sum z a t h0 hs n, Finset.sum_range_succ, add_assoc]

end Cert.Mlp

end
-- ==== Proof.Layers.lean ====
/-
  The body's arithmetic at the extended reals, read index by index.

  One species' trip computes, on a block of 1024 batch rows, three dense layers of 256 units with the leaky
  activation and then the last layer to a column: each matrix product, into a zero accumulator, is at
  row `r` and unit `u` the sum over the 256 contracted features of row entry times weight entry; each bias is one
  row broadcast down the block; the last layer multiplies by the weight row broadcast down the block and sums
  along the lanes. The changes of float format between the layers are the identity here. So unit `u` of row `r`
  after a layer is `Mlp.dense` of that row, and the trip adds to the accumulator the species' energy of each row.
-/
import proofs.«167122_j53979148976569_2_alg».proof.Proof.Gen.KernelIdeal.Skeleton
import proofs.«167122_j53979148976569_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Layers

open Cert.KernelIdeal Cert.KernelIdeal.Gen Idealize.ShloMosaic Idealize.ShloMosaic.ValueIdx

/-- The dimension numbers of the layers' matrix product: a 1024×256 block by a 256×256 weight matrix, contracting
    the block's features with the matrix's rows. -/
abbrev D := dot_S1024x256_S256x256_S1024x256_1_0_0_1_n_n

/-- The left operand is read at the result's row. -/
theorem lhs_row (j : S1024x256.Idx) (q : D.contr.Idx) : (D.lhsIdx j q 0).val = (j 0).val := by
  unfold DotDims.lhsIdx
  rw [dif_neg (show ¬(0 : Fin S1024x256.rank) ∈ D.lhsBatch by decide),
    dif_pos (show (0 : Fin S1024x256.rank) ∈ D.lhsNonContracting by decide)]
  rfl

/-- The right operand is read at the result's column. -/
theorem rhs_col (j : S1024x256.Idx) (q : D.contr.Idx) : (D.rhsIdx j q 1).val = (j 1).val := by
  unfold DotDims.rhsIdx
  rw [dif_neg (show ¬(1 : Fin S256x256.rank) ∈ D.rhsBatch by decide),
    dif_pos (show (1 : Fin S256x256.rank) ∈ D.rhsNonContracting by decide)]
  rfl

/-- The matrix product into a zero accumulator, at row `r` and unit `u`: `∑ₖ x r k · W k u`. -/
theorem matmul_at {φ₁ φ₂ : FTy} (x : FVec Ideal S1024x256 φ₁) (W : FVec Ideal S256x256 φ₂) (r : Fin 1024) (u : Fin 256) :
    matmul D none x W (constant (F := Ideal) S1024x256 .f32 0x00000000#32) (ix2 r u)
      = ∑ k : Fin 256, x (ix2 r k) * W (ix2 k u) := by
  simp only [matmul]
  rw [Ideal.matmul_constant_zero_apply, ← Equiv.sum_comp (ValueIdx.contrEquiv1 D 256 rfl rfl).symm]
  refine Finset.sum_congr rfl fun k _ => ?_
  have hk := ValueIdx.contrEquiv1_symm_val D 256 rfl rfl k
  have el : D.lhsIdx (ix2 r u) ((ValueIdx.contrEquiv1 D 256 rfl rfl).symm k) = ix2 r k := funext fun a => Fin.ext (by
    match a with
    | ⟨0, _⟩ => exact lhs_row _ _
    | ⟨1, _⟩ => exact (D.lhsIdx_val_of_single rfl _ _).trans hk)
  have er : D.rhsIdx (ix2 r u) ((ValueIdx.contrEquiv1 D 256 rfl rfl).symm k) = ix2 k u := funext fun a => Fin.ext (by
    match a with
    | ⟨0, _⟩ => exact (D.rhsIdx_val_of_single rfl _ _).trans hk
    | ⟨1, _⟩ => exact rhs_col _ _)
  rw [el, er]

/-- A dense layer on a block: the product with the weight matrix plus the bias row broadcast down the block, then
    the leaky activation, entry by entry. -/
def denseBlk {φ₁ φ₂ : FTy} (x : FVec Ideal S1024x256 φ₁) (W : FVec Ideal S256x256 φ₂) (β : FVec Ideal S1x256 .f32) :
    FVec Ideal S1024x256 .f32 :=
  have h : FVec Ideal S1024x256 .f32 :=
    addf (matmul D none x W (constant (F := Ideal) S1024x256 .f32 0x00000000#32)) (broadcastTo S1024x256 β broadcasts_S1x256_S1024x256)
  select (cmpf .oge h (broadcast S1024x256 (Scalar.ofBits (F := Ideal) .f32 0x00000000#32))) h
    (mulf (broadcast S1024x256 (Scalar.ofBits (F := Ideal) .f32 0x3DCCCCCD#32)) h)

/-- Unit `u` of row `r` of a dense layer on a block is the layer's unit `u` of that row. -/
theorem denseBlk_apply {φ₁ φ₂ : FTy} (x : FVec Ideal S1024x256 φ₁) (W : FVec Ideal S256x256 φ₂) (β : FVec Ideal S1x256 .f32)
    (r : Fin 1024) (u : Fin 256) :
    denseBlk x W β (ix2 r u)
      = Mlp.dense (fun k => x (ix2 r k)) (fun k v => W (ix2 k v)) (fun v => β (ix2 (0 : Fin 1) v)) u := by
  have e : (addf (matmul D none x W (constant (F := Ideal) S1024x256 .f32 0x00000000#32))
        (broadcastTo S1024x256 β broadcasts_S1x256_S1024x256)) (ix2 r u)
      = ∑ k : Fin 256, x (ix2 r k) * W (ix2 k u) + β (ix2 (0 : Fin 1) u) := by
    rw [addf_apply, matmul_at, broadcastTo_1b_ab_apply]
  exact congrArg Mlp.leaky e

/-- A vector stood up as a column reads, at row `i`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Summing a block along its lanes: the index put back over row `r` with lane `k` is `(r, k)`. -/
theorem lift_eq (r : Fin 1024) (k : Fin 256) :
    reduces_S1024x256_S1024.lift (ix1 r) k = ix2 r k :=
  funext fun a => Fin.ext (by
    match a with
    | ⟨0, _⟩ => rfl
    | ⟨1, _⟩ => rfl)

/-- The last layer on a block: the entries times the weight row broadcast down the block, summed along the
    lanes into a column, plus the bias. -/
def projBlk (h : FVec Ideal S1024x256 .f32) (w : FVec Ideal S1x256 .f32) (β : FVec Ideal S1x1 .f32) : FVec Ideal S1024x1 .f32 :=
  addf (shapeCast S1024x1 (multiReduction (F := Ideal) .add [1] S1024 (mulf h (broadcastTo S1024x256 w broadcasts_S1x256_S1024x256))
      0x00000000#32 reduces_S1024x256_S1024 (.inl rfl) rfl) shapeCasts_S1024_S1024x1)
    (broadcastTo S1024x1 β broadcasts_S1x1_S1024x1)

/-- Row `r` of the last layer: `∑ₖ h r k · w k + β`. -/
theorem projBlk_apply (h : FVec Ideal S1024x256 .f32) (w : FVec Ideal S1x256 .f32) (β : FVec Ideal S1x1 .f32) (r : Fin 1024) :
    projBlk h w β (ix2 r (0 : Fin 1))
      = ∑ k : Fin 256, h (ix2 r k) * w (ix2 (0 : Fin 1) k) + β (ix2 (0 : Fin 1) (0 : Fin 1)) := by
  have hsum : multiReduction (F := Ideal) .add [1] S1024 (mulf h (broadcastTo S1024x256 w broadcasts_S1x256_S1024x256))
        0x00000000#32 reduces_S1024x256_S1024 (.inl rfl) rfl (ix1 r)
      = ∑ k : Fin 256, h (ix2 r k) * w (ix2 (0 : Fin 1) k) :=
    by
      refine (Ideal.multiReduction_add_single _ 0x00000000#32 reduces_S1024x256_S1024 (.inl rfl) rfl (ix1 r)).trans ?_
      show ∑ k : Fin 256, (mulf h (broadcastTo S1024x256 w broadcasts_S1x256_S1024x256)) (reduces_S1024x256_S1024.lift (ix1 r) k) = _
      refine Finset.sum_congr rfl fun k _ => ?_
      rw [lift_eq, mulf_apply, broadcastTo_1b_ab_apply]
  unfold projBlk
  rw [addf_apply, shapeCast_a_a1_apply, hsum, broadcastTo_1b_ab_apply]

/-- The zero column the accumulator starts from. -/
theorem pay1_apply (j : S1024x1.Idx) : k0_pay1 (F := Ideal) j = (Ideal.ofBits .f32 0x00000000#32 : EReal) := by
  unfold k0_pay1
  rw [shapeCast_self]
  rfl

/-- The output block is the logistic function of the accumulator, entry by entry. -/
theorem pay3_apply (v5 : Vec Ideal S1024x1 .f32) (j : S1024x1.Idx) : k0_pay3 (F := Ideal) v5 j = Ideal.logistic (v5 j) := rfl

/-- The first two layers of a species on a block, from its slices: the slices' leading unit axis dropped, two
    dense layers, a change of float format (the identity here) before each product. -/
theorem pay4_eq (v11 : Vec Ideal S1x1024x256 .f32) (v15 : Vec Ideal S1x256x256 .bf16) (v19 : Vec Ideal S1x1x256 .f32)
    (v30 : Vec Ideal S1x256x256 .bf16) (v34 : Vec Ideal S1x1x256 .f32) :
    k0_pay4 (F := Ideal) v11 v15 v19 v30 v34
      = truncf .bf16
          (denseBlk (φ₁ := .bf16) (φ₂ := .bf16)
            (truncf .bf16
              (denseBlk (φ₁ := .bf16) (φ₂ := .bf16)
                (truncf .bf16 (shapeCast S1024x256 v11 shapeCasts_S1x1024x256_S1024x256 : FVec Ideal S1024x256 .f32) bitsLt_bf16_f32)
                (shapeCast S256x256 v15 shapeCasts_S1x256x256_S256x256 : FVec Ideal S256x256 .bf16)
                (shapeCast S1x256 v19 shapeCasts_S1x1x256_S1x256 : FVec Ideal S1x256 .f32))
              bitsLt_bf16_f32)
            (shapeCast S256x256 v30 shapeCasts_S1x256x256_S256x256 : FVec Ideal S256x256 .bf16)
            (shapeCast S1x256 v34 shapeCasts_S1x1x256_S1x256 : FVec Ideal S1x256 .f32))
          bitsLt_bf16_f32 := rfl

/-- Unit `u` of row `r` after a species' first two layers. -/
theorem pay4_apply (v11 : Vec Ideal S1x1024x256 .f32) (v15 : Vec Ideal S1x256x256 .bf16) (v19 : Vec Ideal S1x1x256 .f32)
    (v30 : Vec Ideal S1x256x256 .bf16) (v34 : Vec Ideal S1x1x256 .f32) (r : Fin 1024) (u : Fin 256) :
    k0_pay4 (F := Ideal) v11 v15 v19 v30 v34 (ix2 r u)
      = Mlp.dense (Mlp.dense (fun k => v11 (ix3 (0 : Fin 1) r k)) (fun k v => v15 (ix3 (0 : Fin 1) k v)) (fun v => v19 (ix3 (0 : Fin 1) (0 : Fin 1) v)))
          (fun k v => v30 (ix3 (0 : Fin 1) k v)) (fun v => v34 (ix3 (0 : Fin 1) (0 : Fin 1) v)) u := by
  rw [pay4_eq, truncf_apply, denseBlk_apply]
  simp only [truncf_apply, denseBlk_apply, shapeCast_1ab_ab_apply]

/-- The third layer's weight matrix of a species: its slice with the leading unit axis dropped. -/
theorem pay5_apply (v45 : Vec Ideal S1x256x256 .bf16) (k : Fin 256) (u : Fin 256) :
    k0_pay5 (F := Ideal) v45 (ix2 k u) = v45 (ix3 (0 : Fin 1) k u) := by
  unfold k0_pay5
  exact shapeCast_1ab_ab_apply _ _ k u

/-- One trip's new accumulator: the accumulator it found plus the last two layers of the species on the block. -/
theorem pay2_eq (v43 : FVec Ideal S1024x256 .bf16) (v46 : FVec Ideal S256x256 .bf16) (v49 : Vec Ideal S1x1x256 .f32)
    (v59 : Vec Ideal S1x1x256 .bf16) (v67 : Vec Ideal S1x1x1 .f32) (v71 : Vec Ideal S1024x1 .f32) :
    k0_pay2 (F := Ideal) v43 v46 v49 v59 v67 v71
      = shapeCast S1024x1 (addf v71 (projBlk
            (denseBlk (φ₁ := .bf16) (φ₂ := .bf16) v43 v46 (shapeCast S1x256 v49 shapeCasts_S1x1x256_S1x256 : FVec Ideal S1x256 .f32))
            (extf .f32 (shapeCast S1x256 v59 shapeCasts_S1x1x256_S1x256 : FVec Ideal S1x256 .bf16) bitsLt_bf16_f32)
            (shapeCast S1x1 v67 shapeCasts_S1x1x1_S1x1 : FVec Ideal S1x1 .f32)))
          shapeCasts_S1024x1_S1024x1 := rfl

/-- Row `r` of one trip's new accumulator: what it found at `r` plus `∑ₖ (third layer) r k · w₄ k + β₄`. -/
theorem pay2_apply (v43 : FVec Ideal S1024x256 .bf16) (v46 : FVec Ideal S256x256 .bf16) (v49 : Vec Ideal S1x1x256 .f32)
    (v59 : Vec Ideal S1x1x256 .bf16) (v67 : Vec Ideal S1x1x1 .f32) (v71 : Vec Ideal S1024x1 .f32) (r : Fin 1024) :
    k0_pay2 (F := Ideal) v43 v46 v49 v59 v67 v71 (ix2 r (0 : Fin 1))
      = v71 (ix2 r (0 : Fin 1))
        + (∑ k : Fin 256, Mlp.dense (fun k => v43 (ix2 r k)) (fun k v => v46 (ix2 k v)) (fun v => v49 (ix3 (0 : Fin 1) (0 : Fin 1) v)) k
              * v59 (ix3 (0 : Fin 1) (0 : Fin 1) k)
            + v67 (ix3 (0 : Fin 1) (0 : Fin 1) (0 : Fin 1))) := by
  rw [pay2_eq, shapeCast_self, addf_apply, projBlk_apply]
  simp only [denseBlk_apply, extf_apply, shapeCast_1ab_ab_apply]

end Cert.KernelIdeal.Layers

end
-- ==== Proof.LibStackSlice.lean ====
/-
  A slice of a stack, read at an index.

  A rank-three array `[n, a, b]` is a stack of `n` matrices. A load through the unit-stride rectangle of extents
  `[1, a, b]` whose offsets are `[s, 0, 0]` takes matrix `s` of the stack: read at `(0, i, j)` it is the stack at
  `(s, i, j)`. The offsets are a hypothesis (`off = ![s, 0, 0]`), so that a program's printed offset function is
  used through its stated closed form and never unfolded. Stated for any value family and element type.
-/
import Idealize.ShloMosaic.Lib.ValueIdx
import Idealize.ShloMosaic.Lib.Pipeline.Value

noncomputable section

namespace Cert.StackSlice

open Idealize.ShloMosaic Idealize.ShloMosaic.ValueIdx

/-- A slice of a stack at leading index `s` (one entry of the leading axis, everything of the other two), read at
    `(0, i, j)`, is the stack at `(s, i, j)`. -/
theorem ld_slice {Val : EltTy → Type} {e : EltTy} {n a b : ℕ} (X : (⟨3, ![n, a, b]⟩ : Shape).Idx → Val e) (off : Fin 3 → ℕ) (s : Fin n)
    (hoff : off = ![s.val, 0, 0]) (inb : ∀ c, off c + (![1, a, b] : Fin 3 → ℕ) c ≤ (⟨3, ![n, a, b]⟩ : Shape).size c)
    (i : Fin a) (j : Fin b) :
    View.ld (Val := Val) X (Rect.unit (s := ⟨3, ![n, a, b]⟩) off ![1, a, b] inb) (ix3 (0 : Fin 1) i j) = X (ix3 s i j) := by
  subst hoff
  refine congrArg X (funext fun c => Fin.ext ?_)
  match c with
  | ⟨0, _⟩ => show s.val + 1 * 0 = s.val; omega
  | ⟨1, _⟩ => show 0 + 1 * i.val = i.val; omega
  | ⟨2, _⟩ => show 0 + 1 * j.val = j.val; omega

end Cert.StackSlice

end
-- ==== Proof.Block.lean ====
/-
  The output block of one grid point, at the extended reals.

  The point's nine input blocks are: 1024 batch rows of every species' features (`x0`), and, whole, the three
  weight stacks (`x1 x3 x5`), the three bias stacks (`x2 x4 x6`), the last layer's weight rows (`x7`) and its
  biases (`x8`), each with the species as its leading axis. Species `k`'s trip reads the slices at leading index `k`;
  it adds to row `r` of the accumulator that species' energy of row `r`. The accumulator starts at the zero word,
  so after all eight trips it is the zero word plus the eight energies in order, which is their sum; the block
  is the logistic function of that.
-/
import proofs.«167122_j53979148976569_2_alg».proof.Proof.Accumulator
import proofs.«167122_j53979148976569_2_alg».proof.Proof.Layers
import proofs.«167122_j53979148976569_2_alg».proof.Proof.LibStackSlice

noncomputable section

namespace Cert.KernelIdeal.Block

open Cert.KernelIdeal Cert.KernelIdeal.Gen Idealize.ShloMosaic Idealize.ShloMosaic.ValueIdx Cert.StackSlice

/-- The species a trip works on. -/
def sp (k : Fin k0_t1_loop.trips) : Fin 8 := ⟨k.val, Nat.lt_of_lt_of_le k.isLt k0_t1_abs.2.1⟩

/-- Species `k`'s slices, read at an index: the stack at leading index `k`. -/
theorem rowsOf_apply (x : Vec Ideal S8x1024x256 .f32) (k : Fin k0_t1_loop.trips) (r : Fin 1024) (f : Fin 256) :
    Acc.rowsOf x k (ix3 (0 : Fin 1) r f) = x (ix3 (sp k) r f) :=
  ld_slice (Val := Elt Ideal) x (k0_off1 k) (sp k) (k0_off1_eq k) (k0_off1_inb k) r f

theorem matOf_apply {e : EltTy} (x : Vec Ideal S8x256x256 e) (k : Fin k0_t1_loop.trips) (f : Fin 256) (u : Fin 256) :
    Acc.matOf x k (ix3 (0 : Fin 1) f u) = x (ix3 (sp k) f u) :=
  ld_slice (Val := Elt Ideal) x (k0_off2 k) (sp k) (k0_off2_eq k) (k0_off2_inb k) f u

theorem rowOf_apply {e : EltTy} (x : Vec Ideal S8x1x256 e) (k : Fin k0_t1_loop.trips) (z : Fin 1) (u : Fin 256) :
    Acc.rowOf x k (ix3 (0 : Fin 1) z u) = x (ix3 (sp k) z u) :=
  ld_slice (Val := Elt Ideal) x (k0_off3 k) (sp k) (k0_off3_eq k) (k0_off3_inb k) z u

theorem oneOf_apply (x : Vec Ideal S8x1x1 .f32) (k : Fin k0_t1_loop.trips) (z z' : Fin 1) :
    Acc.oneOf x k (ix3 (0 : Fin 1) z z') = x (ix3 (sp k) z z') :=
  ld_slice (Val := Elt Ideal) x (k0_off4 k) (sp k) (k0_off4_eq k) (k0_off4_inb k) z z'

/-- Row `r` after species `k`'s trip: what the accumulator held at `r` plus that species' energy of row `r`. -/
theorem tripVal_apply (x0 : Vec Ideal S8x1024x256 .f32) (x1 : Vec Ideal S8x256x256 .bf16) (x2 : Vec Ideal S8x1x256 .f32) (x3 : Vec Ideal S8x256x256 .bf16) (x4 : Vec Ideal S8x1x256 .f32) (x5 : Vec Ideal S8x256x256 .bf16) (x6 : Vec Ideal S8x1x256 .f32) (x7 : Vec Ideal S8x1x256 .bf16) (x8 : Vec Ideal S8x1x1 .f32)
    (k : Fin k0_t1_loop.trips) (a : Vec Ideal S1024x1 .f32) (r : Fin 1024) :
    Acc.tripVal x0 x1 x2 x3 x4 x5 x6 x7 x8 k a (ix2 r (0 : Fin 1))
      = a (ix2 r (0 : Fin 1)) + Mlp.energy (fun f => x0 (ix3 (sp k) r f)) (fun f u => x1 (ix3 (sp k) f u)) (fun u => x2 (ix3 (sp k) (0 : Fin 1) u))
          (fun f u => x3 (ix3 (sp k) f u)) (fun u => x4 (ix3 (sp k) (0 : Fin 1) u)) (fun f u => x5 (ix3 (sp k) f u)) (fun u => x6 (ix3 (sp k) (0 : Fin 1) u))
          (fun u => x7 (ix3 (sp k) (0 : Fin 1) u)) (x8 (ix3 (sp k) (0 : Fin 1) (0 : Fin 1))) := by
  unfold Acc.tripVal
  rw [Layers.pay2_apply]
  unfold Mlp.energy
  simp only [Layers.pay4_apply, Layers.pay5_apply, rowsOf_apply, matOf_apply, rowOf_apply, oneOf_apply]

/-- What species number `n` adds at row `r` (nothing past the last species). -/
def term (x0 : Vec Ideal S8x1024x256 .f32) (x1 : Vec Ideal S8x256x256 .bf16) (x2 : Vec Ideal S8x1x256 .f32) (x3 : Vec Ideal S8x256x256 .bf16) (x4 : Vec Ideal S8x1x256 .f32) (x5 : Vec Ideal S8x256x256 .bf16) (x6 : Vec Ideal S8x1x256 .f32) (x7 : Vec Ideal S8x1x256 .bf16) (x8 : Vec Ideal S8x1x1 .f32) (r : Fin 1024) (n : ℕ) : EReal :=
  if h : n < 8 then Mlp.energy (fun f => x0 (ix3 (⟨n, h⟩ : Fin 8) r f)) (fun f u => x1 (ix3 (⟨n, h⟩ : Fin 8) f u)) (fun u => x2 (ix3 (⟨n, h⟩ : Fin 8) (0 : Fin 1) u))
          (fun f u => x3 (ix3 (⟨n, h⟩ : Fin 8) f u)) (fun u => x4 (ix3 (⟨n, h⟩ : Fin 8) (0 : Fin 1) u)) (fun f u => x5 (ix3 (⟨n, h⟩ : Fin 8) f u)) (fun u => x6 (ix3 (⟨n, h⟩ : Fin 8) (0 : Fin 1) u))
          (fun u => x7 (ix3 (⟨n, h⟩ : Fin 8) (0 : Fin 1) u)) (x8 (ix3 (⟨n, h⟩ : Fin 8) (0 : Fin 1) (0 : Fin 1))) else 0

theorem trips_eq : k0_t1_loop.trips = 8 := by decide

/-- Row `r` of the accumulator after `n` trips: the zero word plus the first `n` species' energies. -/
theorem acc_apply (x0 : Vec Ideal S8x1024x256 .f32) (x1 : Vec Ideal S8x256x256 .bf16) (x2 : Vec Ideal S8x1x256 .f32) (x3 : Vec Ideal S8x256x256 .bf16) (x4 : Vec Ideal S8x1x256 .f32) (x5 : Vec Ideal S8x256x256 .bf16) (x6 : Vec Ideal S8x1x256 .f32) (x7 : Vec Ideal S8x1x256 .bf16) (x8 : Vec Ideal S8x1x1 .f32) (r : Fin 1024) (n : ℕ) :
    Acc.acc x0 x1 x2 x3 x4 x5 x6 x7 x8 n (ix2 r (0 : Fin 1))
      = (Ideal.ofBits .f32 0x00000000#32 : EReal) + ∑ k ∈ Finset.range n, term x0 x1 x2 x3 x4 x5 x6 x7 x8 r k := by
  refine Mlp.running_sum _ (term x0 x1 x2 x3 x4 x5 x6 x7 x8 r) (fun n => Acc.acc x0 x1 x2 x3 x4 x5 x6 x7 x8 n (ix2 r (0 : Fin 1))) ?_ ?_ n
  · exact Layers.pay1_apply _
  · intro n
    show (dite (n < k0_t1_loop.trips) _ _ : Vec Ideal S1024x1 .f32) (ix2 r (0 : Fin 1)) = _
    by_cases h : n < k0_t1_loop.trips
    · have h8 : n < 8 := trips_eq ▸ h
      rw [dif_pos h, tripVal_apply, term, dif_pos h8]
      rfl
    · have h8 : ¬ n < 8 := trips_eq ▸ h
      rw [dif_neg h, term, dif_neg h8, add_zero]

/-- Row `r` of the block the point writes: the logistic function of the zero word plus the eight species' energies. -/
theorem block_apply (x0 : Vec Ideal S8x1024x256 .f32) (x1 : Vec Ideal S8x256x256 .bf16) (x2 : Vec Ideal S8x1x256 .f32) (x3 : Vec Ideal S8x256x256 .bf16) (x4 : Vec Ideal S8x1x256 .f32) (x5 : Vec Ideal S8x256x256 .bf16) (x6 : Vec Ideal S8x1x256 .f32) (x7 : Vec Ideal S8x1x256 .bf16) (x8 : Vec Ideal S8x1x1 .f32) (r : Fin 1024) :
    k0_pay3 (F := Ideal) (Acc.acc x0 x1 x2 x3 x4 x5 x6 x7 x8 k0_t1_loop.trips) (ix2 r (0 : Fin 1))
      = Ideal.logistic ((Ideal.ofBits .f32 0x00000000#32 : EReal)
          + ∑ s : Fin 8, Mlp.energy (fun f => x0 (ix3 s r f)) (fun f u => x1 (ix3 s f u)) (fun u => x2 (ix3 s (0 : Fin 1) u))
          (fun f u => x3 (ix3 s f u)) (fun u => x4 (ix3 s (0 : Fin 1) u)) (fun f u => x5 (ix3 s f u)) (fun u => x6 (ix3 s (0 : Fin 1) u))
          (fun u => x7 (ix3 s (0 : Fin 1) u)) (x8 (ix3 s (0 : Fin 1) (0 : Fin 1)))) := by
  rw [Layers.pay3_apply, acc_apply, trips_eq, Finset.sum_range]
  refine congrArg (fun z => Ideal.logistic (_ + z)) (Finset.sum_congr rfl fun s _ => ?_)
  rw [term, dif_pos s.isLt]

end Cert.KernelIdeal.Block

end
-- ==== Proof.KernelRun.lean ====
/-
  The kernel's result array is the specification's function of its argument arrays.

  The grid has 64 points; point `t` works on batch rows `1024·t … 1024·t + 1023`: its block of the input holds
  those rows of every species, the weights' and biases' blocks are their whole arrays at every point, and the
  block it writes is rows `1024·t …` of the result column. The arrays the kernel's windows read are the
  arguments passed through the host operations before the call: a change of float format (the identity here),
  a reshape that inserts a unit axis, and for the last layer's weights a transposition of the two trailing
  axes. So what point `t` writes at its row `r` is the specification at batch row `1024·t + r`; the 64 blocks
  tile the column, so the result array is the specification's.
-/
import proofs.«167122_j53979148976569_2_alg».proof.Proof.Gen.KernelIdeal.Value
import proofs.«167122_j53979148976569_2_alg».proof.Proof.Block
import Idealize.ShloMosaic.Lib.StableHlo.Run

set_option maxRecDepth 16384

noncomputable section

namespace Cert.KernelIdeal.Final

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The specification at core `c`'s argument arrays. -/
abbrev G (c : Dev nD) : S65536x1.Idx → EReal :=
  Mlp.resultArr (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8))

/-! ## The grid: which block each point takes -/

/-- The input's and the result's blocks follow the point along the batch axis. -/
theorem idx_rows : ∀ t : Fin cfg0.N, win0_0.index t (0 : Fin 3) = 0 ∧ win0_0.index t (1 : Fin 3) = t.val ∧ win0_0.index t (2 : Fin 3) = 0
    ∧ win0_9.index t (0 : Fin 2) = t.val ∧ win0_9.index t (1 : Fin 2) = 0 :=
  (by decide +kernel : ∀ t : Fin grid0.N, _)

/-- The weights' and biases' windows stay at their one block. -/
theorem idx_whole : ∀ t : Fin cfg0.N, (∀ a : Fin 3, win0_1.index t a = 0) ∧ (∀ a : Fin 3, win0_2.index t a = 0)
    ∧ (∀ a : Fin 3, win0_3.index t a = 0) ∧ (∀ a : Fin 3, win0_4.index t a = 0) ∧ (∀ a : Fin 3, win0_5.index t a = 0)
    ∧ (∀ a : Fin 3, win0_6.index t a = 0) ∧ (∀ a : Fin 3, win0_7.index t a = 0) ∧ (∀ a : Fin 3, win0_8.index t a = 0) :=
  (by decide +kernel : ∀ t : Fin grid0.N, _)

theorem t_lt (t : Fin cfg0.N) : t.val < 64 := by have h : cfg0.N = 64 := N_0; have := t.isLt; omega

/-- The batch row that row `r` of point `t`'s blocks is. -/
def row (t : Fin cfg0.N) (r : Fin 1024) : Fin 65536 := ⟨t.val * 1024 + r.val, by have := t_lt t; have := r.isLt; omega⟩

/-- Point `t`'s block of the input: every species, batch rows `1024·t …`, every feature. -/
theorem emb0 (t : Fin cfg0.N) (s : Fin 8) (r : Fin 1024) (f : Fin 256) :
    ((cfg0.win 0).blk t).view.emb (ix3 s r f) = ix3 s (row t r) f := by
  obtain ⟨e0, e1, e2, -, -⟩ := idx_rows t
  funext a; apply Fin.ext
  match a with
  | ⟨0, _⟩ => show win0_0.index t (0 : Fin 3) * 8 + 1 * s.val = s.val; omega
  | ⟨1, _⟩ => show win0_0.index t (1 : Fin 3) * 1024 + 1 * r.val = t.val * 1024 + r.val; omega
  | ⟨2, _⟩ => show win0_0.index t (2 : Fin 3) * 256 + 1 * f.val = f.val; omega

/-- Point `t`'s block of the result: batch rows `1024·t …` of the column. -/
theorem emb9 (t : Fin cfg0.N) (r : Fin 1024) (z : Fin 1) :
    ((cfg0.win 9).blk t).view.emb (ix2 r z) = ix2 (row t r) z := by
  obtain ⟨-, -, -, e3, e4⟩ := idx_rows t
  funext a; apply Fin.ext
  match a with
  | ⟨0, _⟩ => show win0_9.index t (0 : Fin 2) * 1024 + 1 * r.val = t.val * 1024 + r.val; omega
  | ⟨1, _⟩ => show win0_9.index t (1 : Fin 2) * 1 + 1 * z.val = z.val; omega

/-- Window 1's one block is its whole array. -/
theorem emb1 (t : Fin cfg0.N) (y : S8x256x256.Idx) : ((cfg0.win 1).blk t).view.emb y = y := by
  have e := (idx_whole t).1
  funext a; apply Fin.ext
  match a with
  | ⟨0, _⟩ => show win0_1.index t (0 : Fin 3) * 8 + 1 * (y 0).val = (y 0).val; have := e 0; omega
  | ⟨1, _⟩ => show win0_1.index t (1 : Fin 3) * 256 + 1 * (y 1).val = (y 1).val; have := e 1; omega
  | ⟨2, _⟩ => show win0_1.index t (2 : Fin 3) * 256 + 1 * (y 2).val = (y 2).val; have := e 2; omega

/-- Window 2's one block is its whole array. -/
theorem emb2 (t : Fin cfg0.N) (y : S8x1x256.Idx) : ((cfg0.win 2).blk t).view.emb y = y := by
  have e := (idx_whole t).2.1
  funext a; apply Fin.ext
  match a with
  | ⟨0, _⟩ => show win0_2.index t (0 : Fin 3) * 8 + 1 * (y 0).val = (y 0).val; have := e 0; omega
  | ⟨1, _⟩ => show win0_2.index t (1 : Fin 3) * 1 + 1 * (y 1).val = (y 1).val; have := e 1; omega
  | ⟨2, _⟩ => show win0_2.index t (2 : Fin 3) * 256 + 1 * (y 2).val = (y 2).val; have := e 2; omega

/-- Window 3's one block is its whole array. -/
theorem emb3 (t : Fin cfg0.N) (y : S8x256x256.Idx) : ((cfg0.win 3).blk t).view.emb y = y := by
  have e := (idx_whole t).2.2.1
  funext a; apply Fin.ext
  match a with
  | ⟨0, _⟩ => show win0_3.index t (0 : Fin 3) * 8 + 1 * (y 0).val = (y 0).val; have := e 0; omega
  | ⟨1, _⟩ => show win0_3.index t (1 : Fin 3) * 256 + 1 * (y 1).val = (y 1).val; have := e 1; omega
  | ⟨2, _⟩ => show win0_3.index t (2 : Fin 3) * 256 + 1 * (y 2).val = (y 2).val; have := e 2; omega

/-- Window 4's one block is its whole array. -/
theorem emb4 (t : Fin cfg0.N) (y : S8x1x256.Idx) : ((cfg0.win 4).blk t).view.emb y = y := by
  have e := (idx_whole t).2.2.2.1
  funext a; apply Fin.ext
  match a with
  | ⟨0, _⟩ => show win0_4.index t (0 : Fin 3) * 8 + 1 * (y 0).val = (y 0).val; have := e 0; omega
  | ⟨1, _⟩ => show win0_4.index t (1 : Fin 3) * 1 + 1 * (y 1).val = (y 1).val; have := e 1; omega
  | ⟨2, _⟩ => show win0_4.index t (2 : Fin 3) * 256 + 1 * (y 2).val = (y 2).val; have := e 2; omega

/-- Window 5's one block is its whole array. -/
theorem emb5 (t : Fin cfg0.N) (y : S8x256x256.Idx) : ((cfg0.win 5).blk t).view.emb y = y := by
  have e := (idx_whole t).2.2.2.2.1
  funext a; apply Fin.ext
  match a with
  | ⟨0, _⟩ => show win0_5.index t (0 : Fin 3) * 8 + 1 * (y 0).val = (y 0).val; have := e 0; omega
  | ⟨1, _⟩ => show win0_5.index t (1 : Fin 3) * 256 + 1 * (y 1).val = (y 1).val; have := e 1; omega
  | ⟨2, _⟩ => show win0_5.index t (2 : Fin 3) * 256 + 1 * (y 2).val = (y 2).val; have := e 2; omega

/-- Window 6's one block is its whole array. -/
theorem emb6 (t : Fin cfg0.N) (y : S8x1x256.Idx) : ((cfg0.win 6).blk t).view.emb y = y := by
  have e := (idx_whole t).2.2.2.2.2.1
  funext a; apply Fin.ext
  match a with
  | ⟨0, _⟩ => show win0_6.index t (0 : Fin 3) * 8 + 1 * (y 0).val = (y 0).val; have := e 0; omega
  | ⟨1, _⟩ => show win0_6.index t (1 : Fin 3) * 1 + 1 * (y 1).val = (y 1).val; have := e 1; omega
  | ⟨2, _⟩ => show win0_6.index t (2 : Fin 3) * 256 + 1 * (y 2).val = (y 2).val; have := e 2; omega

/-- Window 7's one block is its whole array. -/
theorem emb7 (t : Fin cfg0.N) (y : S8x1x256.Idx) : ((cfg0.win 7).blk t).view.emb y = y := by
  have e := (idx_whole t).2.2.2.2.2.2.1
  funext a; apply Fin.ext
  match a with
  | ⟨0, _⟩ => show win0_7.index t (0 : Fin 3) * 8 + 1 * (y 0).val = (y 0).val; have := e 0; omega
  | ⟨1, _⟩ => show win0_7.index t (1 : Fin 3) * 1 + 1 * (y 1).val = (y 1).val; have := e 1; omega
  | ⟨2, _⟩ => show win0_7.index t (2 : Fin 3) * 256 + 1 * (y 2).val = (y 2).val; have := e 2; omega

/-- Window 8's one block is its whole array. -/
theorem emb8 (t : Fin cfg0.N) (y : S8x1x1.Idx) : ((cfg0.win 8).blk t).view.emb y = y := by
  have e := (idx_whole t).2.2.2.2.2.2.2
  funext a; apply Fin.ext
  match a with
  | ⟨0, _⟩ => show win0_8.index t (0 : Fin 3) * 8 + 1 * (y 0).val = (y 0).val; have := e 0; omega
  | ⟨1, _⟩ => show win0_8.index t (1 : Fin 3) * 1 + 1 * (y 1).val = (y 1).val; have := e 1; omega
  | ⟨2, _⟩ => show win0_8.index t (2 : Fin 3) * 1 + 1 * (y 2).val = (y 2).val; have := e 2; omega

/-! ## The arrays the windows read, from the arguments -/

/-- The weight stacks pass through a change of float format only. -/
theorem V_v4 (c : Dev nD) (j : S8x256x256.Idx) : (V m c main_v4 : S8x256x256.Idx → EReal) j = (m ((c : Thread nD τ).loc main_arg1) : S8x256x256.Idx → EReal) j := by
  have e : @Eq (S8x256x256.Idx → EReal) (V m c main_v4) (truncf (F := Ideal) .bf16 (m ((c : Thread nD τ).loc main_arg1) : FVec Ideal S8x256x256 .f32) bitsLt_bf16_f32) := by
    dsimp only [V, hostOps0]; after_results <;> rfl
  rw [e]; rfl
theorem V_v5 (c : Dev nD) (j : S8x256x256.Idx) : (V m c main_v5 : S8x256x256.Idx → EReal) j = (m ((c : Thread nD τ).loc main_arg3) : S8x256x256.Idx → EReal) j := by
  have e : @Eq (S8x256x256.Idx → EReal) (V m c main_v5) (truncf (F := Ideal) .bf16 (m ((c : Thread nD τ).loc main_arg3) : FVec Ideal S8x256x256 .f32) bitsLt_bf16_f32) := by
    dsimp only [V, hostOps0]; after_results <;> rfl
  rw [e]; rfl
theorem V_v6 (c : Dev nD) (j : S8x256x256.Idx) : (V m c main_v6 : S8x256x256.Idx → EReal) j = (m ((c : Thread nD τ).loc main_arg5) : S8x256x256.Idx → EReal) j := by
  have e : @Eq (S8x256x256.Idx → EReal) (V m c main_v6) (truncf (F := Ideal) .bf16 (m ((c : Thread nD τ).loc main_arg5) : FVec Ideal S8x256x256 .f32) bitsLt_bf16_f32) := by
    dsimp only [V, hostOps0]; after_results <;> rfl
  rw [e]; rfl

/-- A bias stack reshaped from `[8, 256]` to `[8, 1, 256]` reads, at `(s, 0, u)`, the stack at `(s, u)`. -/
theorem bias_cast (x : S8x256.Idx → EReal) (s : Fin 8) (z : Fin 1) (u : Fin 256) :
    shapeCast S8x1x256 x shapeCasts_S8x256_S8x1x256 (ix3 s z u) = x (ix2 s u) :=
  shapeCast_apply x _ _ _ (by
    have hz : z.val = 0 := by omega
    rw [Shape.rowMajor_val_two, Shape.rowMajor_val_three]
    show s.val * 256 + u.val = (s.val * 1 + z.val) * 256 + u.val
    rw [hz]; omega)

theorem V_v0 (c : Dev nD) (s : Fin 8) (z : Fin 1) (u : Fin 256) : (V m c main_v0 : S8x1x256.Idx → EReal) (ix3 s z u) = (m ((c : Thread nD τ).loc main_arg2) : S8x256.Idx → EReal) (ix2 s u) := by
  have e : (V m c main_v0 : S8x1x256.Idx → EReal) = shapeCast S8x1x256 (m ((c : Thread nD τ).loc main_arg2) : S8x256.Idx → EReal) shapeCasts_S8x256_S8x1x256 := by
    dsimp only [V, hostOps0]; after_results; rfl
  rw [e]; exact bias_cast _ s z u
theorem V_v1 (c : Dev nD) (s : Fin 8) (z : Fin 1) (u : Fin 256) : (V m c main_v1 : S8x1x256.Idx → EReal) (ix3 s z u) = (m ((c : Thread nD τ).loc main_arg4) : S8x256.Idx → EReal) (ix2 s u) := by
  have e : (V m c main_v1 : S8x1x256.Idx → EReal) = shapeCast S8x1x256 (m ((c : Thread nD τ).loc main_arg4) : S8x256.Idx → EReal) shapeCasts_S8x256_S8x1x256 := by
    dsimp only [V, hostOps0]; after_results; rfl
  rw [e]; exact bias_cast _ s z u
theorem V_v2 (c : Dev nD) (s : Fin 8) (z : Fin 1) (u : Fin 256) : (V m c main_v2 : S8x1x256.Idx → EReal) (ix3 s z u) = (m ((c : Thread nD τ).loc main_arg6) : S8x256.Idx → EReal) (ix2 s u) := by
  have e : (V m c main_v2 : S8x1x256.Idx → EReal) = shapeCast S8x1x256 (m ((c : Thread nD τ).loc main_arg6) : S8x256.Idx → EReal) shapeCasts_S8x256_S8x1x256 := by
    dsimp only [V, hostOps0]; after_results; rfl
  rw [e]; exact bias_cast _ s z u

/-- A stack of eight scalars reshaped from `[8, 1]` to `[8, 1, 1]` reads, at `(s, 0, 0)`, the stack at `(s, 0)`. -/
theorem scalar_cast (x : S8x1.Idx → EReal) (s : Fin 8) (z z' : Fin 1) :
    shapeCast S8x1x1 x shapeCasts_S8x1_S8x1x1 (ix3 s z z') = x (ix2 s (0 : Fin 1)) :=
  shapeCast_apply x _ _ _ (by
    have hz : z.val = 0 := by omega
    have hz' : z'.val = 0 := by omega
    rw [Shape.rowMajor_val_two, Shape.rowMajor_val_three]
    show s.val * 1 + (0 : Fin 1).val = (s.val * 1 + z.val) * 1 + z'.val
    rw [hz, hz']; simp)

/-- The last layer's biases reshaped from `[8, 1]` to `[8, 1, 1]`. -/
theorem V_v3 (c : Dev nD) (s : Fin 8) (z z' : Fin 1) : (V m c main_v3 : S8x1x1.Idx → EReal) (ix3 s z z') = (m ((c : Thread nD τ).loc main_arg8) : S8x1.Idx → EReal) (ix2 s (0 : Fin 1)) := by
  have e : (V m c main_v3 : S8x1x1.Idx → EReal) = shapeCast S8x1x1 (m ((c : Thread nD τ).loc main_arg8) : S8x1.Idx → EReal) shapeCasts_S8x1_S8x1x1 := by
    dsimp only [V, hostOps0]; after_results; rfl
  rw [e]; exact scalar_cast _ s z z'

/-- The last layer's weights `[8, 256, 1]` with their trailing axes transposed to `[8, 1, 256]`, then a change of float format. -/
theorem V_v8 (c : Dev nD) (s : Fin 8) (z : Fin 1) (u : Fin 256) : (V m c main_v8 : S8x1x256.Idx → EReal) (ix3 s z u) = (m ((c : Thread nD τ).loc main_arg7) : S8x256x1.Idx → EReal) (ix3 s u z) := by
  have e : @Eq (S8x1x256.Idx → EReal) (V m c main_v8) (truncf (F := Ideal) .bf16 (transpose S8x1x256 [0, 2, 1] (m ((c : Thread nD τ).loc main_arg7) : FVec Ideal S8x256x1 .f32) transposes_S8x256x1_S8x1x256_0_2_1) bitsLt_bf16_f32) := by
    dsimp only [V, hostOps0]; after_results <;> rfl
  rw [e]
  exact transpose_ix3_021_apply _ _ s z u

/-! ## What a point writes, and the whole array -/

/-- What point `t` writes back is block `t` of the specification at the argument arrays. -/
theorem flushed_eq (c : Dev nD) (t : Fin cfg0.N) :
    (dats m 0 c).flushed 9 t = ((cfg0.win 9).blk t).view.read (Elt Ideal) (G m c) := by
  rw [Value.flushed9_A, Acc.out_eq c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (ms0_8 t) (hs0_8 t) (ms0_9 t) (hs0_9 t) scM0_0 (Memref.isWhole_whole _)
    (iblk m c 0 t) (iblk m c 1 t) (iblk m c 2 t) (iblk m c 3 t) (iblk m c 4 t) (iblk m c 5 t) (iblk m c 6 t) (iblk m c 7 t) (iblk m c 8 t)]
  funext j
  obtain ⟨r, z, rfl⟩ : ∃ (r : Fin 1024) (z : Fin 1), j = ix2 r z := ⟨j 0, j 1, eq_ix2 j⟩
  obtain rfl : z = 0 := Subsingleton.elim _ _
  show k0_pay3 (F := Ideal) (Acc.acc (iblk m c 0 t) (iblk m c 1 t) (iblk m c 2 t) (iblk m c 3 t) (iblk m c 4 t) (iblk m c 5 t) (iblk m c 6 t) (iblk m c 7 t) (iblk m c 8 t) k0_t1_loop.trips) (ix2 r (0 : Fin 1))
      = G m c (((cfg0.win 9).blk t).view.emb (ix2 r (0 : Fin 1)))
  refine (Block.block_apply (iblk m c 0 t) (iblk m c 1 t) (iblk m c 2 t) (iblk m c 3 t) (iblk m c 4 t) (iblk m c 5 t) (iblk m c 6 t) (iblk m c 7 t) (iblk m c 8 t) r).trans ?_
  rw [emb9]
  show _ = Ideal.logistic _
  refine congrArg (fun z => Ideal.logistic (_ + z)) (Finset.sum_congr rfl fun s _ => ?_)
  have h0 : ∀ f : Fin 256, iblk m c 0 t (ix3 s r f) = (m ((c : Thread nD τ).loc main_arg0) : S8x65536x256.Idx → EReal) (ix3 s (row t r) f) := fun f => by
    show V m c main_arg0 (((cfg0.win 0).blk t).view.emb (ix3 s r f)) = _
    rw [emb0, V_main_arg0]
  have h1 : ∀ (f u : Fin 256), iblk m c 1 t (ix3 s f u) = (m ((c : Thread nD τ).loc main_arg1) : S8x256x256.Idx → EReal) (ix3 s f u) := fun f u => by
    show (V m c main_v4 : S8x256x256.Idx → EReal) (((cfg0.win 1).blk t).view.emb (ix3 s f u)) = _
    rw [emb1, V_v4]
  have h2 : ∀ u : Fin 256, iblk m c 2 t (ix3 s (0 : Fin 1) u) = (m ((c : Thread nD τ).loc main_arg2) : S8x256.Idx → EReal) (ix2 s u) := fun u => by
    show (V m c main_v0 : S8x1x256.Idx → EReal) (((cfg0.win 2).blk t).view.emb (ix3 s (0 : Fin 1) u)) = _
    rw [emb2, V_v0]
  have h3 : ∀ (f u : Fin 256), iblk m c 3 t (ix3 s f u) = (m ((c : Thread nD τ).loc main_arg3) : S8x256x256.Idx → EReal) (ix3 s f u) := fun f u => by
    show (V m c main_v5 : S8x256x256.Idx → EReal) (((cfg0.win 3).blk t).view.emb (ix3 s f u)) = _
    rw [emb3, V_v5]
  have h4 : ∀ u : Fin 256, iblk m c 4 t (ix3 s (0 : Fin 1) u) = (m ((c : Thread nD τ).loc main_arg4) : S8x256.Idx → EReal) (ix2 s u) := fun u => by
    show (V m c main_v1 : S8x1x256.Idx → EReal) (((cfg0.win 4).blk t).view.emb (ix3 s (0 : Fin 1) u)) = _
    rw [emb4, V_v1]
  have h5 : ∀ (f u : Fin 256), iblk m c 5 t (ix3 s f u) = (m ((c : Thread nD τ).loc main_arg5) : S8x256x256.Idx → EReal) (ix3 s f u) := fun f u => by
    show (V m c main_v6 : S8x256x256.Idx → EReal) (((cfg0.win 5).blk t).view.emb (ix3 s f u)) = _
    rw [emb5, V_v6]
  have h6 : ∀ u : Fin 256, iblk m c 6 t (ix3 s (0 : Fin 1) u) = (m ((c : Thread nD τ).loc main_arg6) : S8x256.Idx → EReal) (ix2 s u) := fun u => by
    show (V m c main_v2 : S8x1x256.Idx → EReal) (((cfg0.win 6).blk t).view.emb (ix3 s (0 : Fin 1) u)) = _
    rw [emb6, V_v2]
  have h7 : ∀ u : Fin 256, iblk m c 7 t (ix3 s (0 : Fin 1) u) = (m ((c : Thread nD τ).loc main_arg7) : S8x256x1.Idx → EReal) (ix3 s u (0 : Fin 1)) := fun u => by
    show (V m c main_v8 : S8x1x256.Idx → EReal) (((cfg0.win 7).blk t).view.emb (ix3 s (0 : Fin 1) u)) = _
    rw [emb7, V_v8]
  have h8 : iblk m c 8 t (ix3 s (0 : Fin 1) (0 : Fin 1)) = (m ((c : Thread nD τ).loc main_arg8) : S8x1.Idx → EReal) (ix2 s (0 : Fin 1)) := by
    show (V m c main_v3 : S8x1x1.Idx → EReal) (((cfg0.win 8).blk t).view.emb (ix3 s (0 : Fin 1) (0 : Fin 1))) = _
    rw [emb8, V_v3]
  simp only [h0, h1, h2, h3, h4, h5, h6, h7, h8]

/-- An index of the result column is in point `t`'s block iff its row is one of the point's 1024. -/
theorem mem_blk (t : Fin cfg0.N) (i : S65536x1.Idx) :
    i ∈ ((cfg0.win 9).blk t).view.set ↔ ∀ a : Fin 2, win0_9.index t a * S1024x1.size a ≤ (i a).val ∧ (i a).val < win0_9.index t a * S1024x1.size a + S1024x1.size a := by
  show i ∈ ((View.whole main_v9).slice (win0_9.rect t)).set ↔ _
  rw [View.set_slice_whole, Rect.mem_set_unit]
  exact Iff.rfl

/-- Every row of the result column is in the block of the point `row / 1024`. -/
theorem cover (i : S65536x1.Idx) : ∃ t : Fin cfg0.N, (cfg0.win 9).flush t = true ∧ i ∈ ((cfg0.win 9).blk t).view.set := by
  have hi0 : (i 0).val < 65536 := (i 0).isLt
  have hi1 : (i 1).val < 1 := (i 1).isLt
  have hN : cfg0.N = 64 := N_0
  let t : Fin cfg0.N := ⟨(i 0).val / 1024, by omega⟩
  obtain ⟨-, -, -, e3, e4⟩ := idx_rows t
  have ht : t.val = (i 0).val / 1024 := rfl
  refine ⟨t, flush0_9 t, ?_⟩
  rw [mem_blk]
  intro a
  match a with
  | ⟨0, _⟩ => show win0_9.index t (0 : Fin 2) * 1024 ≤ (i 0).val ∧ (i 0).val < win0_9.index t (0 : Fin 2) * 1024 + 1024; omega
  | ⟨1, _⟩ => show win0_9.index t (1 : Fin 2) * 1 ≤ (i 1).val ∧ (i 1).val < win0_9.index t (1 : Fin 2) * 1 + 1; omega

/-- The result array after the run is the specification at the argument arrays. -/
theorem final (c : Dev nD) : (dats m 0 c).arrAt 9 cfg0.N = G m c :=
  (dats m 0 c).arrAt_eq_of_cover 9 (G m c) (fun t _ => flushed_eq m c t) cover

/-- The kernel's run: every weakly fair execution ends with the result array at the specification of the
    argument arrays, and the argument arrays unchanged. -/
theorem run : θ_run defs (onTc (τ := τ) (main (F := Ideal))) ⟨m, fun _ => 0, ρ⟩ fun r => ∀ c : Dev nD,
      r.2.mem ((c : Thread nD τ).loc main_v9) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.Final

end
-- ==== Proof.Reference.lean ====
/-
  The reference computes the specification.

  The reference program applies, to whole arrays, per species: a batched matrix product contracting the features,
  the bias broadcast over the batch rows, and the leaky activation spelt as compare, multiply by the slope word and
  select — three times —, then the last layer's batched product and bias, the sum over the species axis started
  from the zero word, and `1 / (1 + exp (−·))` spelt with the word `1.0`. Read at an index, stage by stage, that is
  `Mlp.dense` of the stage before, then `Mlp.energy`, then `Mlp.result`; `1 / (1 + exp (−x))` with the word
  `1.0` denoting the real `1` is by definition the logistic function on the extended reals.
-/
import proofs.«167122_j53979148976569_2_alg».proof.Proof.Gen.ReferenceIdeal.Read
import proofs.«167122_j53979148976569_2_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- The single-precision word `1.0` denotes the real `1`. -/
theorem one_word : Ideal.ofBits .f32 0x3F800000#32 = (1 : EReal) := by
  simp [Ideal.ofBits, Ideal.ieee, -EReal.coe_mul]; norm_num

/-! ### Layer 1 -/

theorem lidx1 (s : Fin 8) (r : Fin 65536) (u k : Fin 256) : lidx_main_v0 (ix3 s r u) k = ix3 s r k :=
  funext fun a => Fin.ext (by
    match a with
    | ⟨0, _⟩ => rfl
    | ⟨1, _⟩ => rfl
    | ⟨2, _⟩ => rfl)

theorem ridx1 (s : Fin 8) (r : Fin 65536) (u k : Fin 256) : ridx_main_v0 (ix3 s r u) k = ix3 s k u :=
  funext fun a => Fin.ext (by
    match a with
    | ⟨0, _⟩ => rfl
    | ⟨1, _⟩ => rfl
    | ⟨2, _⟩ => rfl)

theorem bidx1 (s : Fin 8) (r : Fin 65536) (u : Fin 256) : idx_main_v1 (idx_main_v2 (ix3 s r u)) = ix2 s u :=
  funext fun a => Fin.ext (by
    match a with
    | ⟨0, _⟩ => rfl
    | ⟨1, _⟩ => rfl)

/-- Unit `u` of row `r` of species `s` after layer 1. -/
theorem layer1 (x0 : (⟨S8x65536x256, .f32⟩ : BufTy).Contents (Elt Ideal)) (x1 : (⟨S8x256x256, .f32⟩ : BufTy).Contents (Elt Ideal)) (x2 : (⟨S8x256, .f32⟩ : BufTy).Contents (Elt Ideal)) (s : Fin 8) (r : Fin 65536) (u : Fin 256) :
    val_main_v8 (F := Ideal) x0 x1 x2 (ix3 s r u) = Mlp.dense (fun f => x0 (ix3 s r f)) (fun f v => x1 (ix3 s f v)) (fun v => x2 (ix2 s v)) u := by
  have hsum : val_main_v3 (F := Ideal) x0 x1 x2 (ix3 s r u)
      = ∑ k : Fin 256, (fun f => x0 (ix3 s r f)) k * x1 (ix3 s k u) + x2 (ix2 s u) := by
    rw [val_main_v3_apply, val_main_v0_apply, val_main_v2_apply, val_main_v1_apply, Ideal.addf_def]
    refine congrArg₂ (· + ·) (Finset.sum_congr rfl fun k _ => ?_) (congrArg x2 (bidx1 s r u))
    rw [lidx1, ridx1]
  rw [val_main_v8_apply, val_main_v5_apply, val_main_v7_apply, val_main_v4_apply, val_main_cst_apply,
    val_main_v6_apply, val_main_cst_0_apply, hsum]
  rfl

/-! ### Layer 2 -/

theorem lidx2 (s : Fin 8) (r : Fin 65536) (u k : Fin 256) : lidx_main_v9 (ix3 s r u) k = ix3 s r k :=
  funext fun a => Fin.ext (by
    match a with
    | ⟨0, _⟩ => rfl
    | ⟨1, _⟩ => rfl
    | ⟨2, _⟩ => rfl)

theorem ridx2 (s : Fin 8) (r : Fin 65536) (u k : Fin 256) : ridx_main_v9 (ix3 s r u) k = ix3 s k u :=
  funext fun a => Fin.ext (by
    match a with
    | ⟨0, _⟩ => rfl
    | ⟨1, _⟩ => rfl
    | ⟨2, _⟩ => rfl)

theorem bidx2 (s : Fin 8) (r : Fin 65536) (u : Fin 256) : idx_main_v10 (idx_main_v11 (ix3 s r u)) = ix2 s u :=
  funext fun a => Fin.ext (by
    match a with
    | ⟨0, _⟩ => rfl
    | ⟨1, _⟩ => rfl)

/-- Unit `u` of row `r` of species `s` after layer 2. -/
theorem layer2 (x0 : (⟨S8x65536x256, .f32⟩ : BufTy).Contents (Elt Ideal)) (x1 : (⟨S8x256x256, .f32⟩ : BufTy).Contents (Elt Ideal)) (x2 : (⟨S8x256, .f32⟩ : BufTy).Contents (Elt Ideal)) (x3 : (⟨S8x256x256, .f32⟩ : BufTy).Contents (Elt Ideal)) (x4 : (⟨S8x256, .f32⟩ : BufTy).Contents (Elt Ideal)) (s : Fin 8) (r : Fin 65536) (u : Fin 256) :
    val_main_v17 (F := Ideal) x0 x1 x2 x3 x4 (ix3 s r u) = Mlp.dense (Mlp.dense (fun f => x0 (ix3 s r f)) (fun f v => x1 (ix3 s f v)) (fun v => x2 (ix2 s v))) (fun f v => x3 (ix3 s f v)) (fun v => x4 (ix2 s v)) u := by
  have hsum : val_main_v12 (F := Ideal) x0 x1 x2 x3 x4 (ix3 s r u)
      = ∑ k : Fin 256, (Mlp.dense (fun f => x0 (ix3 s r f)) (fun f v => x1 (ix3 s f v)) (fun v => x2 (ix2 s v))) k * x3 (ix3 s k u) + x4 (ix2 s u) := by
    rw [val_main_v12_apply, val_main_v9_apply, val_main_v11_apply, val_main_v10_apply, Ideal.addf_def]
    refine congrArg₂ (· + ·) (Finset.sum_congr rfl fun k _ => ?_) (congrArg x4 (bidx2 s r u))
    rw [lidx2, ridx2, layer1]
  rw [val_main_v17_apply, val_main_v14_apply, val_main_v16_apply, val_main_v13_apply, val_main_cst_1_apply,
    val_main_v15_apply, val_main_cst_2_apply, hsum]
  rfl

/-! ### Layer 3 -/

theorem lidx3 (s : Fin 8) (r : Fin 65536) (u k : Fin 256) : lidx_main_v18 (ix3 s r u) k = ix3 s r k :=
  funext fun a => Fin.ext (by
    match a with
    | ⟨0, _⟩ => rfl
    | ⟨1, _⟩ => rfl
    | ⟨2, _⟩ => rfl)

theorem ridx3 (s : Fin 8) (r : Fin 65536) (u k : Fin 256) : ridx_main_v18 (ix3 s r u) k = ix3 s k u :=
  funext fun a => Fin.ext (by
    match a with
    | ⟨0, _⟩ => rfl
    | ⟨1, _⟩ => rfl
    | ⟨2, _⟩ => rfl)

theorem bidx3 (s : Fin 8) (r : Fin 65536) (u : Fin 256) : idx_main_v19 (idx_main_v20 (ix3 s r u)) = ix2 s u :=
  funext fun a => Fin.ext (by
    match a with
    | ⟨0, _⟩ => rfl
    | ⟨1, _⟩ => rfl)

/-- Unit `u` of row `r` of species `s` after layer 3. -/
theorem layer3 (x0 : (⟨S8x65536x256, .f32⟩ : BufTy).Contents (Elt Ideal)) (x1 : (⟨S8x256x256, .f32⟩ : BufTy).Contents (Elt Ideal)) (x2 : (⟨S8x256, .f32⟩ : BufTy).Contents (Elt Ideal)) (x3 : (⟨S8x256x256, .f32⟩ : BufTy).Contents (Elt Ideal)) (x4 : (⟨S8x256, .f32⟩ : BufTy).Contents (Elt Ideal)) (x5 : (⟨S8x256x256, .f32⟩ : BufTy).Contents (Elt Ideal)) (x6 : (⟨S8x256, .f32⟩ : BufTy).Contents (Elt Ideal)) (s : Fin 8) (r : Fin 65536) (u : Fin 256) :
    val_main_v26 (F := Ideal) x0 x1 x2 x3 x4 x5 x6 (ix3 s r u) = Mlp.dense (Mlp.dense (Mlp.dense (fun f => x0 (ix3 s r f)) (fun f v => x1 (ix3 s f v)) (fun v => x2 (ix2 s v))) (fun f v => x3 (ix3 s f v)) (fun v => x4 (ix2 s v))) (fun f v => x5 (ix3 s f v)) (fun v => x6 (ix2 s v)) u := by
  have hsum : val_main_v21 (F := Ideal) x0 x1 x2 x3 x4 x5 x6 (ix3 s r u)
      = ∑ k : Fin 256, (Mlp.dense (Mlp.dense (fun f => x0 (ix3 s r f)) (fun f v => x1 (ix3 s f v)) (fun v => x2 (ix2 s v))) (fun f v => x3 (ix3 s f v)) (fun v => x4 (ix2 s v))) k * x5 (ix3 s k u) + x6 (ix2 s u) := by
    rw [val_main_v21_apply, val_main_v18_apply, val_main_v20_apply, val_main_v19_apply, Ideal.addf_def]
    refine congrArg₂ (· + ·) (Finset.sum_congr rfl fun k _ => ?_) (congrArg x6 (bidx3 s r u))
    rw [lidx3, ridx3, layer2]
  rw [val_main_v26_apply, val_main_v23_apply, val_main_v25_apply, val_main_v22_apply, val_main_cst_3_apply,
    val_main_v24_apply, val_main_cst_4_apply, hsum]
  rfl

/-! ### The last layer, the sum over the species, the logistic function -/

theorem lidx4 (s : Fin 8) (r : Fin 65536) (z : Fin 1) (k : Fin 256) : lidx_main_v27 (ix3 s r z) k = ix3 s r k :=
  funext fun a => Fin.ext (by
    match a with
    | ⟨0, _⟩ => rfl
    | ⟨1, _⟩ => rfl
    | ⟨2, _⟩ => rfl)

theorem ridx4 (s : Fin 8) (r : Fin 65536) (z : Fin 1) (k : Fin 256) : ridx_main_v27 (ix3 s r z) k = ix3 s k z :=
  funext fun a => Fin.ext (by
    match a with
    | ⟨0, _⟩ => rfl
    | ⟨1, _⟩ => rfl
    | ⟨2, _⟩ => rfl)

theorem bidx4 (s : Fin 8) (r : Fin 65536) (z : Fin 1) : idx_main_v28 (idx_main_v29 (ix3 s r z)) = ix2 s (0 : Fin 1) :=
  funext fun a => Fin.ext (by
    match a with
    | ⟨0, _⟩ => rfl
    | ⟨1, _⟩ => rfl)

theorem sidx (r : Fin 65536) (z : Fin 1) (s : Fin 8) : idx_main_v31 (ix2 r z) s = ix3 s r z :=
  funext fun a => Fin.ext (by
    match a with
    | ⟨0, _⟩ => rfl
    | ⟨1, _⟩ => rfl
    | ⟨2, _⟩ => rfl)

/-- Species `s`'s energy of row `r`. -/
theorem energy_apply (x0 : (⟨S8x65536x256, .f32⟩ : BufTy).Contents (Elt Ideal)) (x1 : (⟨S8x256x256, .f32⟩ : BufTy).Contents (Elt Ideal)) (x2 : (⟨S8x256, .f32⟩ : BufTy).Contents (Elt Ideal)) (x3 : (⟨S8x256x256, .f32⟩ : BufTy).Contents (Elt Ideal)) (x4 : (⟨S8x256, .f32⟩ : BufTy).Contents (Elt Ideal)) (x5 : (⟨S8x256x256, .f32⟩ : BufTy).Contents (Elt Ideal)) (x6 : (⟨S8x256, .f32⟩ : BufTy).Contents (Elt Ideal)) (x7 : (⟨S8x256x1, .f32⟩ : BufTy).Contents (Elt Ideal)) (x8 : (⟨S8x1, .f32⟩ : BufTy).Contents (Elt Ideal)) (s : Fin 8) (r : Fin 65536) :
    val_main_v30 (F := Ideal) x0 x1 x2 x3 x4 x5 x6 x7 x8 (ix3 s r (0 : Fin 1))
      = Mlp.energy (fun f => x0 (ix3 s r f)) (fun f v => x1 (ix3 s f v)) (fun v => x2 (ix2 s v)) (fun f v => x3 (ix3 s f v)) (fun v => x4 (ix2 s v)) (fun f v => x5 (ix3 s f v)) (fun v => x6 (ix2 s v))
          (fun v => x7 (ix3 s v (0 : Fin 1))) (x8 (ix2 s (0 : Fin 1))) := by
  rw [val_main_v30_apply, val_main_v27_apply, val_main_v29_apply, val_main_v28_apply, Ideal.addf_def]
  refine congrArg₂ (· + ·) (Finset.sum_congr rfl fun k _ => ?_) (congrArg x8 (bidx4 s r 0))
  rw [lidx4, ridx4, layer3]

/-- The reference's result at row `r` is the specification's. -/
theorem result_apply (x0 : (⟨S8x65536x256, .f32⟩ : BufTy).Contents (Elt Ideal)) (x1 : (⟨S8x256x256, .f32⟩ : BufTy).Contents (Elt Ideal)) (x2 : (⟨S8x256, .f32⟩ : BufTy).Contents (Elt Ideal)) (x3 : (⟨S8x256x256, .f32⟩ : BufTy).Contents (Elt Ideal)) (x4 : (⟨S8x256, .f32⟩ : BufTy).Contents (Elt Ideal)) (x5 : (⟨S8x256x256, .f32⟩ : BufTy).Contents (Elt Ideal)) (x6 : (⟨S8x256, .f32⟩ : BufTy).Contents (Elt Ideal)) (x7 : (⟨S8x256x1, .f32⟩ : BufTy).Contents (Elt Ideal)) (x8 : (⟨S8x1, .f32⟩ : BufTy).Contents (Elt Ideal)) (r : Fin 65536) :
    val_main_v37 (F := Ideal) x0 x1 x2 x3 x4 x5 x6 x7 x8 (ix2 r (0 : Fin 1))
      = Mlp.result (fun s r f => x0 (ix3 s r f)) (fun s f v => x1 (ix3 s f v)) (fun s v => x2 (ix2 s v))
          (fun s f v => x3 (ix3 s f v)) (fun s v => x4 (ix2 s v)) (fun s f v => x5 (ix3 s f v)) (fun s v => x6 (ix2 s v))
          (fun s v => x7 (ix3 s v (0 : Fin 1))) (fun s => x8 (ix2 s (0 : Fin 1))) r := by
  have hs : ∑ k : Fin 8, val_main_v30 (F := Ideal) x0 x1 x2 x3 x4 x5 x6 x7 x8 (idx_main_v31 (ix2 r (0 : Fin 1)) k)
      = ∑ s : Fin 8, Mlp.energy (fun f => x0 (ix3 s r f)) (fun f v => x1 (ix3 s f v)) (fun v => x2 (ix2 s v)) (fun f v => x3 (ix3 s f v)) (fun v => x4 (ix2 s v)) (fun f v => x5 (ix3 s f v)) (fun v => x6 (ix2 s v))
          (fun v => x7 (ix3 s v (0 : Fin 1))) (x8 (ix2 s (0 : Fin 1))) :=
    Finset.sum_congr rfl fun k _ => by rw [sidx, energy_apply]
  rw [val_main_v37_apply, val_main_v36_apply, val_main_cst_7_apply, val_main_v35_apply, val_main_v34_apply, val_main_cst_6_apply,
    val_main_v33_apply, val_main_v32_apply, val_main_v31_apply, val_main_cst_5_apply, hs]
  unfold Mlp.result Ideal.logistic
  simp only [Ideal.hostDivf_def, Ideal.addf_def, Ideal.hostUnary_exp_def, Ideal.hostNegf_def, Ideal.negf_def, Ideal.ofBits_def, one_word]

/-- The reference's result array is the specification's function of its nine argument arrays. -/
theorem result_eq (x0 : (⟨S8x65536x256, .f32⟩ : BufTy).Contents (Elt Ideal)) (x1 : (⟨S8x256x256, .f32⟩ : BufTy).Contents (Elt Ideal)) (x2 : (⟨S8x256, .f32⟩ : BufTy).Contents (Elt Ideal)) (x3 : (⟨S8x256x256, .f32⟩ : BufTy).Contents (Elt Ideal)) (x4 : (⟨S8x256, .f32⟩ : BufTy).Contents (Elt Ideal)) (x5 : (⟨S8x256x256, .f32⟩ : BufTy).Contents (Elt Ideal)) (x6 : (⟨S8x256, .f32⟩ : BufTy).Contents (Elt Ideal)) (x7 : (⟨S8x256x1, .f32⟩ : BufTy).Contents (Elt Ideal)) (x8 : (⟨S8x1, .f32⟩ : BufTy).Contents (Elt Ideal)) :
    val_main_v37 (F := Ideal) x0 x1 x2 x3 x4 x5 x6 x7 x8 = Mlp.resultArr x0 x1 x2 x3 x4 x5 x6 x7 x8 := by
  funext i
  obtain ⟨r, z, rfl⟩ : ∃ (r : Fin 65536) (z : Fin 1), i = ix2 r z := ⟨i 0, i 1, eq_ix2 i⟩
  obtain rfl : z = 0 := Subsingleton.elim _ _
  exact result_apply x0 x1 x2 x3 x4 x5 x6 x7 x8 r

end Cert.ReferenceIdeal.RefValue

end
-- ==== Proof.lean ====
/- The proof of `Cert.Claim` (proofs.«167122_j53979148976569_2_alg».proof.Defs).

   The two programs: for each of 65536 batch rows and each of eight species, the row's 256 features go through
   three dense layers of 256 units with the leaky activation (slope the single-precision word nearest 0.1, the same
   word in both programs) and a last layer to one unit; the eight results are summed and the logistic function is
   applied. The kernel does this per block of 1024 rows, looping over the species and adding each species' column
   into an accumulator it first zeroes, with its weights passed through a change of float format, its biases
   through a reshape and the last weights through a transposition; the reference does it with batched matrix
   products over whole arrays and spells the logistic function as `1 / (1 + exp (−x))`.

   At the extended reals the changes of float format are the identity, a matrix product into a zero accumulator and
   a sum along the lanes are the plain sums the reference's contractions are, `1 / (1 + exp (−x))` is the logistic
   function by definition, and the accumulator's eight additions in order are the sum over the species: addition is
   associative there without any finiteness, so the precondition is not used. Both runs are stated with one term,
   `Mlp.resultArr` of the nine argument arrays (Proof/Spec.lean): Proof/KernelRun.lean for the kernel (over
   Proof/Accumulator.lean, Proof/Layers.lean, Proof/Block.lean), Proof/Reference.lean for the reference.
   The three frames are the programs' runs with the result dropped; the idealization rewrote nothing, so
   `preserves` has nothing to state. -/
import proofs.«167122_j53979148976569_2_alg».proof.Defs
import proofs.«167122_j53979148976569_2_alg».proof.Proof.Gen.Kernel
import proofs.«167122_j53979148976569_2_alg».proof.Proof.Gen.Kernel.Skeleton
import proofs.«167122_j53979148976569_2_alg».proof.Proof.Gen.Kernel.Loops
import proofs.«167122_j53979148976569_2_alg».proof.Proof.Gen.Kernel.Launch
import proofs.«167122_j53979148976569_2_alg».proof.Proof.Gen.Kernel.Points
import proofs.«167122_j53979148976569_2_alg».proof.Proof.Gen.Kernel.Frame
import proofs.«167122_j53979148976569_2_alg».proof.Proof.Gen.KernelIdeal
import proofs.«167122_j53979148976569_2_alg».proof.Proof.Gen.KernelIdeal.Skeleton
import proofs.«167122_j53979148976569_2_alg».proof.Proof.Gen.KernelIdeal.Loops
import proofs.«167122_j53979148976569_2_alg».proof.Proof.Gen.KernelIdeal.Launch
import proofs.«167122_j53979148976569_2_alg».proof.Proof.Gen.KernelIdeal.Points
import proofs.«167122_j53979148976569_2_alg».proof.Proof.Gen.KernelIdeal.Frame
import proofs.«167122_j53979148976569_2_alg».proof.Proof.Gen.KernelIdeal.Value
import proofs.«167122_j53979148976569_2_alg».proof.Proof.Gen.ReferenceIdeal.Run
import proofs.«167122_j53979148976569_2_alg».proof.Proof.Gen.ReferenceIdeal.Read
import proofs.«167122_j53979148976569_2_alg».proof.Proof.Gen.ReferenceIdeal
import proofs.«167122_j53979148976569_2_alg».proof.Proof.Gen.Pre_finite_inputs
import proofs.«167122_j53979148976569_2_alg».proof.Proof.KernelRun
import proofs.«167122_j53979148976569_2_alg».proof.Proof.Reference
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the specification's function of those arguments. -/
theorem algebraic : Cert.algebraic_KernelIdeal_ReferenceIdeal := by
  intro m ρ m' ρ' _ hagree
  refine ⟨fun c => Cert.KernelIdeal.Final.G m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, Cert.ReferenceIdeal.RefValue.result_eq]
  obtain ⟨h0, h1, h2, h3, h4, h5, h6, h7, h8⟩ := hagree c
  rw [h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
